-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 20
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S10000x128, .f32⟩
  | .hbm, ⟨17, _⟩ => ⟨S1x128, .f32⟩
  | .hbm, ⟨18, _⟩ => ⟨S1x128, .f32⟩
  | .hbm, ⟨19, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S200x128, .f32⟩
  | .local _ .vmem, ⟨12, _⟩ => ⟨S200x128, .f32⟩
  | .local _ .vmem, ⟨13, _⟩ => ⟨S10000x128, .f32⟩
  | .local _ .vmem, ⟨14, _⟩ => ⟨S10000x128, .f32⟩
  | .local _ .vmem, ⟨15, _⟩ => ⟨S200x10000, .f32⟩
  | .local _ .vmem, ⟨16, _⟩ => ⟨S200x10000, .f32⟩
  | .local _ .vmem, ⟨17, _⟩ => ⟨S200x10000, .f32⟩
  | .local _ .vmem, ⟨18, _⟩ => ⟨S200x10000, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S200x128, .f32⟩
  | .local _ .vmem, ⟨24, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S200x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S200x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x128.size a ≤ S10000x128.size a
  hwx0_9 : ∀ i : grid0.Coords, EltTy.bits .f32 = 32 ∨ (Rect.block (s := S10000x128) S200x128.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x10000.size a ≤ S10000x10000.size a
  hwx1_2 : ∀ i : grid1.Coords, EltTy.bits .f32 = 32 ∨ (Rect.block (s := S10000x10000) S200x10000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x128.size a ≤ S10000x128.size a
  hwx1_7 : ∀ i : grid1.Coords, EltTy.bits .f32 = 32 ∨ (Rect.block (s := S10000x128) S200x128.size (cc1_transform_7 i) (hinb1_7 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S200x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S200x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S200x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S128x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S128x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S128x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S128x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Region0.lean ====
/-
  The first propagation layer's launch, half of its frame. Its kernel keeps the input projection
  h0 = tanh (x · W_inᵀ + b_in) in a scratch buffer of its own: the first of the fifty grid points computes it from the
  whole blocks of x, W_in and the bias row and stores it there; every point then reads the scratch, multiplies one
  strip of 200 rows of each adjacency matrix into it, and stores the strip's 200 x 128 result. So the body has two
  cases, and the region's invariant says what the scratch holds: anything before the first point, the projection of
  the first point's blocks afterwards. Stated for every float instance, at any contents `V` of the core's buffers
  when the region is entered.
-/
import proofs.«163664_g26603027432195_retrytranche2_1891_18_alg».proof.Proof.Gen.Kernel.Launch
import proofs.«163664_g26603027432195_retrytranche2_1891_18_alg».proof.Proof.Gen.Kernel.Skeleton
import proofs.«163664_g26603027432195_retrytranche2_1891_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and both stores go through the whole rectangle of their buffer -/

abbrev r0_S10000x128 : Rect S10000x128 := Rect.unit (s := S10000x128) ![0, 0] S10000x128.size inb_S10000x128_S10000x128_0_0
abbrev r0_S200x10000 : Rect S200x10000 := Rect.unit (s := S200x10000) ![0, 0] S200x10000.size inb_S200x10000_S200x10000_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0
abbrev r0_S200x128 : Rect S200x128 := Rect.unit (s := S200x128) ![0, 0] S200x128.size inb_S200x128_S200x128_0_0

/-! ## What the body leaves in the scratch and in the output window's buffer -/

/-- The scratch after the first point's store: the projection's payload over the loaded blocks. -/
def scr0 (x0 : Vec F S10000x128 .f32) (x1 : Vec F S128x128 .f32) (x2 : Vec F S1x128 .f32) : Vec F S10000x128 .f32 :=
  View.canon [⟨r0_S10000x128, k0_pay1 (View.ld x0 r0_S10000x128) (View.ld x1 r0_S128x128) (View.ld x2 r0_S1x128)⟩]

/-- That store covers the scratch. -/
theorem scover0 (p0 : Vec F S10000x128 .f32) (y : S10000x128.Idx) :
    ∃ pc ∈ ([⟨r0_S10000x128, p0⟩] : List (View.Piece (Elt F) S10000x128 .f32)), y ∈ pc.1.set :=
  View.cover_of_tiled [⟨r0_S10000x128, p0⟩] S10000x128.size (by rfl) y

/-- The output's staging buffer after the body, from what the scratch holds (`s`) and the strip's blocks. -/
def out0_9 (s : Vec F S10000x128 .f32) (x3 x4 : Vec F S200x10000 .f32) (x5 x6 : Vec F S128x128 .f32) (x7 x8 : Vec F S1x128 .f32) : Vec F S200x128 .f32 :=
  View.canon [⟨r0_S200x128, k0_pay2 (View.ld s r0_S10000x128) (View.ld x3 r0_S200x10000) (View.ld x4 r0_S200x10000) (View.ld x5 r0_S128x128) (View.ld x7 r0_S1x128) (View.ld x6 r0_S128x128) (View.ld x8 r0_S1x128)⟩]

/-- The one store covers the output's buffer. -/
theorem cover0_9 (p0 : Vec F S200x128 .f32) (y : S200x128.Idx) :
    ∃ pc ∈ ([⟨r0_S200x128, p0⟩] : List (View.Piece (Elt F) S200x128 .f32)), y ∈ pc.1.set :=
  View.cover_of_tiled [⟨r0_S200x128, p0⟩] S200x128.size (by rfl) y

/-! ## The branch: the body's `scf.if` asks whether the grid coordinate is zero -/

/-- The condition of the body's one branch, from the grid coordinate. -/
abbrev cond0 (i : grid0.Coords) : Prop := (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-! ## The body's triples -/

set_option maxHeartbeats 8000000 in
/-- THE FIRST POINT. The inputs' memrefs at contents `xW`, the output's and the scratch at anything: the body stores the
    projection into the scratch, reads it back, and leaves the output at `out0_9` of it. -/
theorem sound_kernel0_A (c : Dev nD) (E : Set ℕ) (i : grid0.Coords) (hc : cond0 i) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .f32) (harg11 : arg11.IsWhole)
    (x0 : Vec F S10000x128 .f32) (x1 : Vec F S128x128 .f32) (x2 : Vec F S1x128 .f32) (x3 : Vec F S200x10000 .f32) (x4 : Vec F S200x10000 .f32) (x5 : Vec F S128x128 .f32) (x6 : Vec F S128x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 (scr0 x0 x1 x2) x3 x4 x5 x6 x7 x8) ∗ owns (c : Thread nD τ) arg11 fullShare (scr0 x0 x1 x2)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10 arg11 harg11) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    unfold out0_9 scr0
    sl_unfold_run_names
    rw [View.readCov_eq_canon_ld _ _ r0_S10000x128 (scover0 _)]
    rfl
  iexists _; isplitr
  swap; · iexact H10
  ipureintro
  exact View.read_writes_eq_canon _ _ _ (scover0 _)

set_option maxHeartbeats 8000000 in
/-- EVERY LATER POINT. The scratch holds `s`: the body leaves it there and the output at `out0_9 s` of the strip. -/
theorem sound_kernel0_B (c : Dev nD) (E : Set ℕ) (i : grid0.Coords) (hc : ¬cond0 i) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .f32) (harg11 : arg11.IsWhole)
    (x0 : Vec F S10000x128 .f32) (x1 : Vec F S128x128 .f32) (x2 : Vec F S1x128 .f32) (x3 : Vec F S200x10000 .f32) (x4 : Vec F S200x10000 .f32) (x5 : Vec F S128x128 .f32) (x6 : Vec F S128x128 .f32) (x7 : Vec F S1x128 .f32) (x8 : Vec F S1x128 .f32) (s : Vec F S10000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 s x3 x4 x5 x6 x7 x8) ∗ owns (c : Thread nD τ) arg11 fullShare s) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10 arg11 harg11) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  subst hf0; subst hf1; subst hf2; subst hf3; subst hf4; subst hf5; subst hf6; subst hf7; subst hf8; subst hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists f10; isplitr; · ipureintro; rfl
  iexact H10

/-! ## The region's invariant: what the scratch holds between points -/

/-- The scratch operand: a whole scoped buffer of the kernel's own, passed beside the windows. -/
abbrev scM0 : Memref sig .tc .vmem S10000x128 .f32 := Memref.whole cc0_scratch0

/-- The core's other scoped buffers that are no staging buffer of this pipeline (the second layer's staging
    buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class's invariant (the scoped buffers no window stages, the generator register) with the scratch set apart. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-- The grid's first point. -/
def t0 : Fin cfg0.N := ⟨0, by rw [show cfg0.N = 50 from N_0]; decide⟩

/-- What the scratch holds from the first point on: the projection of the first point's blocks of x, W_in and the
    bias row (those three windows' blocks are the whole arrays at every point). -/
def S0 (c : Dev nD) : Vec F S10000x128 .f32 := scr0 (iblk0 V c 0 t0) (iblk0 V c 1 t0) (iblk0 V c 2 t0)

/-- The invariant before position `n`: before the first point the class's (the scratch at anything); afterwards
    the scratch at `S0`, the other scoped buffers at anything, the generator register at some state. -/
def Phi0 (c : Dev nD) : ℕ → sProp 𝕄
  | 0 => Pipeline.ΦA spec0 c
  | _ + 1 => iprop((owns (c : Thread nD τ) scM0 fullShare (S0 V c) ∗ others0 c) ∗ (∃ r, prngReg c r))

theorem Phi0_pos (c : Dev nD) (n : ℕ) (hz : n ≠ 0) :
    Phi0 V c n = iprop((owns (c : Thread nD τ) scM0 fullShare (S0 V c) ∗ others0 c) ∗ (∃ r, prngReg c r)) := by
  cases n with
  | zero => exact absurd rfl hz
  | succ n => rfl

/-! ## The pipeline's proof data -/

/-- The proof data of the first layer's pipeline on core `c`: the arrays as the region finds them; after the body
    at point `t` each input's buffer at its block and the output's at `out0_9` of the scratch's contents `S0` and
    the strip's blocks — at every point, the first included; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (S0 V c) (iblk0 V c 3 t) (iblk0 V c 4 t) (iblk0 V c 5 t) (iblk0 V c 6 t) (iblk0 V c 7 t) (iblk0 V c 8 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (S0 V c) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) :
    (dat0 V c).Φ t.succ = iprop((owns (c : Thread nD τ) scM0 fullShare (S0 V c) ∗ others0 c) ∗ (∃ r, prngReg c r)) := rfl

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 8000000 in
/-- The body at any point: the inputs' memrefs hold their blocks; at the first point the invariant hands the body
    the scratch at anything and takes it back at `S0`; at every later point it hands it over at `S0` and takes it
    back unchanged; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, Phi_succ0, Phi_castSucc0]
  by_cases hz : t.val = 0
  · obtain rfl : t = t0 := Fin.ext hz
    rw [show Phi0 V c (t0 : Fin cfg0.N).val = Pipeline.ΦA spec0 c from rfl, PhiA0_eq]
    iintro ⟨⟨⟨⟨%ds, HS⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ (grid0.coords t0) ((hcond0 t0).mpr rfl) _ _ _ _ _ _ _ _ _ _ _ _ _ _ _ _ _ _ _ _ _ _ (iblk0 V c 0 t0) (iblk0 V c 1 t0) (iblk0 V c 2 t0) (iblk0 V c 3 t0) (iblk0 V c 4 t0) (iblk0 V c 5 t0) (iblk0 V c 6 t0) (iblk0 V c 7 t0) (iblk0 V c 8 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexists _; iexact HS
    iintro ⟨H0, H1, H2, H3, H4, H5, H6, H7, H8, H9, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi0_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ (grid0.coords t) (fun h => hz ((hcond0 t).mp h)) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (S0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last, show cfg0.N = 50 from N_0]; decide), PhiA0_eq]
  iintro ⟨⟨HS, Hoth⟩, Hg⟩
  isplitl [HS Hoth]
  · isplitl [HS]; · iexists _; iexact HS
    iexact Hoth
  iexact Hg

end Cert.Kernel.Frame

end
-- ==== Proof.Kernel.Region1.lean ====
/-
  The second propagation layer's launch, half of its frame: at any contents `V` of the core's buffers when the
  region is entered, what each of the fifty grid points reads (the whole matrix h, one strip of 200 rows of each
  adjacency matrix, the two weight matrices, the two bias rows) and what it leaves in the output's staging buffer
  (one store of the whole 200 x 128 block: tanh of the two products plus biases), the body's triple, the proof data
  and the body obligation. Stated for every float instance.
-/
import proofs.«163664_g26603027432195_retrytranche2_1891_18_alg».proof.Proof.Gen.Kernel.Launch
import proofs.«163664_g26603027432195_retrytranche2_1891_18_alg».proof.Proof.Gen.Kernel.Skeleton
import proofs.«163664_g26603027432195_retrytranche2_1891_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: an unfetched
    window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole rectangle of their buffer -/

abbrev r1_S10000x128 : Rect S10000x128 := Rect.unit (s := S10000x128) ![0, 0] S10000x128.size inb_S10000x128_S10000x128_0_0
abbrev r1_S200x10000 : Rect S200x10000 := Rect.unit (s := S200x10000) ![0, 0] S200x10000.size inb_S200x10000_S200x10000_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0
abbrev r1_S200x128 : Rect S200x128 := Rect.unit (s := S200x128) ![0, 0] S200x128.size inb_S200x128_S200x128_0_0

/-! ## What the body leaves in the output window's buffer -/

/-- The output's staging buffer after the body: its one store, of the strip's payload over the loaded blocks. -/
def out1_7 (x0 : Vec F S10000x128 .f32) (x1 : Vec F S200x10000 .f32) (x2 : Vec F S200x10000 .f32) (x3 : Vec F S128x128 .f32) (x4 : Vec F S128x128 .f32) (x5 : Vec F S1x128 .f32) (x6 : Vec F S1x128 .f32) : Vec F S200x128 .f32 :=
  View.canon [⟨r1_S200x128, k1_pay1 (View.ld x0 r1_S10000x128) (View.ld x1 r1_S200x10000) (View.ld x2 r1_S200x10000) (View.ld x3 r1_S128x128) (View.ld x5 r1_S1x128) (View.ld x4 r1_S128x128) (View.ld x6 r1_S1x128)⟩]

/-- The one store covers the buffer. -/
theorem cover1_7 (p0 : Vec F S200x128 .f32) (y : S200x128.Idx) :
    ∃ pc ∈ ([⟨r1_S200x128, p0⟩] : List (View.Piece (Elt F) S200x128 .f32)), y ∈ pc.1.set :=
  View.cover_of_tiled [⟨r1_S200x128, p0⟩] S200x128.size (by rfl) y

/-! ## The body's triple -/

set_option maxHeartbeats 4000000 in
/-- The body on whole staging memrefs, the inputs' at contents `xW` and the output's at anything, runs to the
    continuation holding the inputs' as they were and the output's at `out1_7` of the inputs'. -/
theorem sound_kernel1 (c : Dev nD) (E : Set ℕ) (i : grid1.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S200x128 .f32) (harg8 : arg8.IsWhole)
    (x0 : Vec F S10000x128 .f32) (x1 : Vec F S200x10000 .f32) (x2 : Vec F S200x10000 .f32) (x3 : Vec F S128x128 .f32) (x4 : Vec F S128x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__layer2_kernel i arg1 harg1 arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the second layer's pipeline on core `c`: the arrays as the region finds them; after the body
    at point `t` each input's buffer at its block and the output's at `out1_7` of the blocks; the invariant the scoped
    buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.Kernel.Run.lean ====
/-
  The run of the whole program: the three bias reshapes, the first layer's launch, the two bias reshapes, the second
  layer's launch. The contents of the core's buffers at every boundary are a fold from the launch memory (a host
  stretch's operations applied; a region's arrays at what its write-backs leave, every other buffer as entered), and
  every weakly fair execution terminates with every unscoped buffer at the last boundary's contents. Read at the
  argument arrays this is the frame (no stretch and no region writes an argument); read at the result array it is what
  the second layer's fifty write-backs leave. Stated for every float instance.
-/
import proofs.«163664_g26603027432195_retrytranche2_1891_18_alg».proof.Proof.Kernel.Region0
import proofs.«163664_g26603027432195_retrytranche2_1891_18_alg».proof.Proof.Kernel.Region1
import proofs.«163664_g26603027432195_retrytranche2_1891_18_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev E0 : Dev nD → Valuation τ sig (Elt F) := fun c b => (s₀ m ρ).mem ((c : Dev nD), b)
/-- After the first three reshapes (the first layer's entry). -/
abbrev E1 : Dev nD → Valuation τ sig (Elt F) := fun c => StableHlo.after hostOps0 (E0 m ρ c)
/-- The same read at the TensorCore's references. -/
abbrev E1v : (c : Dev nD) → (b : Ref sig .tc) → Buf (Elt F) ((c : Thread nD τ).loc b) := fun c b => E1 m ρ c b
/-- At the first layer's exit: its arrays at what the pipeline leaves, every other buffer as entered. -/
def E2 (c : Dev nD) : Valuation τ sig (Elt F) :=
  Pipeline.withArrays spec0 c (E1 m ρ c) fun w => (dat0 (E1v m ρ) c).arrAt w cfg0.N
theorem E2_arr (c : Dev nD) (w : Fin cfg0.W) :
    E2 m ρ c (Proc.devRef .tc (Pipeline.arrRef spec0 w)) = (dat0 (E1v m ρ) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev E2v : (c : Dev nD) → (b : Ref sig .tc) → Buf (Elt F) ((c : Thread nD τ).loc b) := fun c b => E2 m ρ c b
theorem hF0 (c : Dev nD) (w : Fin cfg0.W) : (dat0 (E1v m ρ) c).arrAt w cfg0.N = E2v m ρ c (Pipeline.arrRef spec0 w) :=
  (E2_arr m ρ c w).symm
theorem hrest0 (c : Dev nD) : ∀ b, b ∉ Finset.univ.image (Pipeline.arrRef spec0) → E2v m ρ c b = E1v m ρ c b :=
  fun b hb => E2_of_ne m ρ c b fun w e => hb (Finset.mem_image.mpr ⟨w, Finset.mem_univ _, e⟩)

/-- After the next two reshapes (the second layer's entry). -/
abbrev E3 : Dev nD → Valuation τ sig (Elt F) := fun c => StableHlo.after hostOps1 (E2 m ρ c)
abbrev E3v : (c : Dev nD) → (b : Ref sig .tc) → Buf (Elt F) ((c : Thread nD τ).loc b) := fun c b => E3 m ρ c b
/-- At the second layer's exit. -/
def E4 (c : Dev nD) : Valuation τ sig (Elt F) :=
  Pipeline.withArrays spec1 c (E3 m ρ c) fun w => (dat1 (E3v m ρ) c).arrAt w cfg1.N
theorem E4_arr (c : Dev nD) (w : Fin cfg1.W) :
    E4 m ρ c (Proc.devRef .tc (Pipeline.arrRef spec1 w)) = (dat1 (E3v m ρ) c).arrAt w cfg1.N := by
  unfold E4; exact Pipeline.withArrays_arr spec1 launch1.win.arr_inj c _ _ w
theorem E4_of_ne (c : Dev nD) (b : Ref sig .tc) (hb : ∀ w, Pipeline.arrRef spec1 w ≠ b) :
    E4 m ρ c (Proc.devRef .tc b) = E3 m ρ c (Proc.devRef .tc b) := by
  unfold E4; exact Pipeline.withArrays_of_ne spec1 c _ _ b hb
abbrev E4v : (c : Dev nD) → (b : Ref sig .tc) → Buf (Elt F) ((c : Thread nD τ).loc b) := fun c b => E4 m ρ c b
theorem hF1 (c : Dev nD) (w : Fin cfg1.W) : (dat1 (E3v m ρ) c).arrAt w cfg1.N = E4v m ρ c (Pipeline.arrRef spec1 w) :=
  (E4_arr m ρ c w).symm
theorem hrest1 (c : Dev nD) : ∀ b, b ∉ Finset.univ.image (Pipeline.arrRef spec1) → E4v m ρ c b = E3v m ρ c b :=
  fun b hb => E4_of_ne m ρ c b fun w e => hb (Finset.mem_image.mpr ⟨w, Finset.mem_univ _, e⟩)

/-! ### The arguments end as launched: no host operation and no region writes one -/

theorem E4_main_arg0 (c : Dev nD) : E4 m ρ c (Proc.devRef .tc main_arg0) = m ((c : Thread nD τ).loc main_arg0) :=
  calc E4 m ρ c (Proc.devRef .tc main_arg0)
    _ = E3 m ρ c (Proc.devRef .tc main_arg0) := E4_of_ne m ρ c main_arg0 (by decide)
    _ = E2 m ρ c (Proc.devRef .tc main_arg0) := StableHlo.after_of_writes_sub hostOps1 _ hostOps1_writes (r := main_arg0) (by decide)
    _ = E1 m ρ c (Proc.devRef .tc main_arg0) := (E2_arr m ρ c 0).trans (((dat0 (E1v m ρ) c).arrAt_in 0 rfl _).trans (A_eq0 (E1v m ρ) c 0))
    _ = E0 m ρ c (Proc.devRef .tc main_arg0) := StableHlo.after_of_writes_sub hostOps0 _ hostOps0_writes (r := main_arg0) (by decide)
    _ = m ((c : Thread nD τ).loc main_arg0) := rfl
theorem E4_main_arg1 (c : Dev nD) : E4 m ρ c (Proc.devRef .tc main_arg1) = m ((c : Thread nD τ).loc main_arg1) :=
  calc E4 m ρ c (Proc.devRef .tc main_arg1)
    _ = E3 m ρ c (Proc.devRef .tc main_arg1) := (E4_arr m ρ c 1).trans (((dat1 (E3v m ρ) c).arrAt_in 1 rfl _).trans (A_eq1 (E3v m ρ) c 1))
    _ = E2 m ρ c (Proc.devRef .tc main_arg1) := StableHlo.after_of_writes_sub hostOps1 _ hostOps1_writes (r := main_arg1) (by decide)
    _ = E1 m ρ c (Proc.devRef .tc main_arg1) := (E2_arr m ρ c 3).trans (((dat0 (E1v m ρ) c).arrAt_in 3 rfl _).trans (A_eq0 (E1v m ρ) c 3))
    _ = E0 m ρ c (Proc.devRef .tc main_arg1) := StableHlo.after_of_writes_sub hostOps0 _ hostOps0_writes (r := main_arg1) (by decide)
    _ = m ((c : Thread nD τ).loc main_arg1) := rfl
theorem E4_main_arg2 (c : Dev nD) : E4 m ρ c (Proc.devRef .tc main_arg2) = m ((c : Thread nD τ).loc main_arg2) :=
  calc E4 m ρ c (Proc.devRef .tc main_arg2)
    _ = E3 m ρ c (Proc.devRef .tc main_arg2) := (E4_arr m ρ c 2).trans (((dat1 (E3v m ρ) c).arrAt_in 2 rfl _).trans (A_eq1 (E3v m ρ) c 2))
    _ = E2 m ρ c (Proc.devRef .tc main_arg2) := StableHlo.after_of_writes_sub hostOps1 _ hostOps1_writes (r := main_arg2) (by decide)
    _ = E1 m ρ c (Proc.devRef .tc main_arg2) := (E2_arr m ρ c 4).trans (((dat0 (E1v m ρ) c).arrAt_in 4 rfl _).trans (A_eq0 (E1v m ρ) c 4))
    _ = E0 m ρ c (Proc.devRef .tc main_arg2) := StableHlo.after_of_writes_sub hostOps0 _ hostOps0_writes (r := main_arg2) (by decide)
    _ = m ((c : Thread nD τ).loc main_arg2) := rfl
theorem E4_main_arg3 (c : Dev nD) : E4 m ρ c (Proc.devRef .tc main_arg3) = m ((c : Thread nD τ).loc main_arg3) :=
  calc E4 m ρ c (Proc.devRef .tc main_arg3)
    _ = E3 m ρ c (Proc.devRef .tc main_arg3) := E4_of_ne m ρ c main_arg3 (by decide)
    _ = E2 m ρ c (Proc.devRef .tc main_arg3) := StableHlo.after_of_writes_sub hostOps1 _ hostOps1_writes (r := main_arg3) (by decide)
    _ = E1 m ρ c (Proc.devRef .tc main_arg3) := (E2_arr m ρ c 1).trans (((dat0 (E1v m ρ) c).arrAt_in 1 rfl _).trans (A_eq0 (E1v m ρ) c 1))
    _ = E0 m ρ c (Proc.devRef .tc main_arg3) := StableHlo.after_of_writes_sub hostOps0 _ hostOps0_writes (r := main_arg3) (by decide)
    _ = m ((c : Thread nD τ).loc main_arg3) := rfl
theorem E4_main_arg4 (c : Dev nD) : E4 m ρ c (Proc.devRef .tc main_arg4) = m ((c : Thread nD τ).loc main_arg4) :=
  calc E4 m ρ c (Proc.devRef .tc main_arg4)
    _ = E3 m ρ c (Proc.devRef .tc main_arg4) := E4_of_ne m ρ c main_arg4 (by decide)
    _ = E2 m ρ c (Proc.devRef .tc main_arg4) := StableHlo.after_of_writes_sub hostOps1 _ hostOps1_writes (r := main_arg4) (by decide)
    _ = E1 m ρ c (Proc.devRef .tc main_arg4) := E2_of_ne m ρ c main_arg4 (by decide)
    _ = E0 m ρ c (Proc.devRef .tc main_arg4) := StableHlo.after_of_writes_sub hostOps0 _ hostOps0_writes (r := main_arg4) (by decide)
    _ = m ((c : Thread nD τ).loc main_arg4) := rfl
theorem E4_main_arg5 (c : Dev nD) : E4 m ρ c (Proc.devRef .tc main_arg5) = m ((c : Thread nD τ).loc main_arg5) :=
  calc E4 m ρ c (Proc.devRef .tc main_arg5)
    _ = E3 m ρ c (Proc.devRef .tc main_arg5) := E4_of_ne m ρ c main_arg5 (by decide)
    _ = E2 m ρ c (Proc.devRef .tc main_arg5) := StableHlo.after_of_writes_sub hostOps1 _ hostOps1_writes (r := main_arg5) (by decide)
    _ = E1 m ρ c (Proc.devRef .tc main_arg5) := (E2_arr m ρ c 5).trans (((dat0 (E1v m ρ) c).arrAt_in 5 rfl _).trans (A_eq0 (E1v m ρ) c 5))
    _ = E0 m ρ c (Proc.devRef .tc main_arg5) := StableHlo.after_of_writes_sub hostOps0 _ hostOps0_writes (r := main_arg5) (by decide)
    _ = m ((c : Thread nD τ).loc main_arg5) := rfl
theorem E4_main_arg6 (c : Dev nD) : E4 m ρ c (Proc.devRef .tc main_arg6) = m ((c : Thread nD τ).loc main_arg6) :=
  calc E4 m ρ c (Proc.devRef .tc main_arg6)
    _ = E3 m ρ c (Proc.devRef .tc main_arg6) := E4_of_ne m ρ c main_arg6 (by decide)
    _ = E2 m ρ c (Proc.devRef .tc main_arg6) := StableHlo.after_of_writes_sub hostOps1 _ hostOps1_writes (r := main_arg6) (by decide)
    _ = E1 m ρ c (Proc.devRef .tc main_arg6) := E2_of_ne m ρ c main_arg6 (by decide)
    _ = E0 m ρ c (Proc.devRef .tc main_arg6) := StableHlo.after_of_writes_sub hostOps0 _ hostOps0_writes (r := main_arg6) (by decide)
    _ = m ((c : Thread nD τ).loc main_arg6) := rfl
theorem E4_main_arg7 (c : Dev nD) : E4 m ρ c (Proc.devRef .tc main_arg7) = m ((c : Thread nD τ).loc main_arg7) :=
  calc E4 m ρ c (Proc.devRef .tc main_arg7)
    _ = E3 m ρ c (Proc.devRef .tc main_arg7) := E4_of_ne m ρ c main_arg7 (by decide)
    _ = E2 m ρ c (Proc.devRef .tc main_arg7) := StableHlo.after_of_writes_sub hostOps1 _ hostOps1_writes (r := main_arg7) (by decide)
    _ = E1 m ρ c (Proc.devRef .tc main_arg7) := (E2_arr m ρ c 6).trans (((dat0 (E1v m ρ) c).arrAt_in 6 rfl _).trans (A_eq0 (E1v m ρ) c 6))
    _ = E0 m ρ c (Proc.devRef .tc main_arg7) := StableHlo.after_of_writes_sub hostOps0 _ hostOps0_writes (r := main_arg7) (by decide)
    _ = m ((c : Thread nD τ).loc main_arg7) := rfl
theorem E4_main_arg8 (c : Dev nD) : E4 m ρ c (Proc.devRef .tc main_arg8) = m ((c : Thread nD τ).loc main_arg8) :=
  calc E4 m ρ c (Proc.devRef .tc main_arg8)
    _ = E3 m ρ c (Proc.devRef .tc main_arg8) := E4_of_ne m ρ c main_arg8 (by decide)
    _ = E2 m ρ c (Proc.devRef .tc main_arg8) := StableHlo.after_of_writes_sub hostOps1 _ hostOps1_writes (r := main_arg8) (by decide)
    _ = E1 m ρ c (Proc.devRef .tc main_arg8) := E2_of_ne m ρ c main_arg8 (by decide)
    _ = E0 m ρ c (Proc.devRef .tc main_arg8) := StableHlo.after_of_writes_sub hostOps0 _ hostOps0_writes (r := main_arg8) (by decide)
    _ = m ((c : Thread nD τ).loc main_arg8) := rfl
theorem E4_main_arg9 (c : Dev nD) : E4 m ρ c (Proc.devRef .tc main_arg9) = m ((c : Thread nD τ).loc main_arg9) :=
  calc E4 m ρ c (Proc.devRef .tc main_arg9)
    _ = E3 m ρ c (Proc.devRef .tc main_arg9) := (E4_arr m ρ c 3).trans (((dat1 (E3v m ρ) c).arrAt_in 3 rfl _).trans (A_eq1 (E3v m ρ) c 3))
    _ = E2 m ρ c (Proc.devRef .tc main_arg9) := StableHlo.after_of_writes_sub hostOps1 _ hostOps1_writes (r := main_arg9) (by decide)
    _ = E1 m ρ c (Proc.devRef .tc main_arg9) := E2_of_ne m ρ c main_arg9 (by decide)
    _ = E0 m ρ c (Proc.devRef .tc main_arg9) := StableHlo.after_of_writes_sub hostOps0 _ hostOps0_writes (r := main_arg9) (by decide)
    _ = m ((c : Thread nD τ).loc main_arg9) := rfl
theorem E4_main_arg10 (c : Dev nD) : E4 m ρ c (Proc.devRef .tc main_arg10) = m ((c : Thread nD τ).loc main_arg10) :=
  calc E4 m ρ c (Proc.devRef .tc main_arg10)
    _ = E3 m ρ c (Proc.devRef .tc main_arg10) := E4_of_ne m ρ c main_arg10 (by decide)
    _ = E2 m ρ c (Proc.devRef .tc main_arg10) := StableHlo.after_of_writes_sub hostOps1 _ hostOps1_writes (r := main_arg10) (by decide)
    _ = E1 m ρ c (Proc.devRef .tc main_arg10) := E2_of_ne m ρ c main_arg10 (by decide)
    _ = E0 m ρ c (Proc.devRef .tc main_arg10) := StableHlo.after_of_writes_sub hostOps0 _ hostOps0_writes (r := main_arg10) (by decide)
    _ = m ((c : Thread nD τ).loc main_arg10) := rfl
theorem E4_main_arg11 (c : Dev nD) : E4 m ρ c (Proc.devRef .tc main_arg11) = m ((c : Thread nD τ).loc main_arg11) :=
  calc E4 m ρ c (Proc.devRef .tc main_arg11)
    _ = E3 m ρ c (Proc.devRef .tc main_arg11) := (E4_arr m ρ c 4).trans (((dat1 (E3v m ρ) c).arrAt_in 4 rfl _).trans (A_eq1 (E3v m ρ) c 4))
    _ = E2 m ρ c (Proc.devRef .tc main_arg11) := StableHlo.after_of_writes_sub hostOps1 _ hostOps1_writes (r := main_arg11) (by decide)
    _ = E1 m ρ c (Proc.devRef .tc main_arg11) := E2_of_ne m ρ c main_arg11 (by decide)
    _ = E0 m ρ c (Proc.devRef .tc main_arg11) := StableHlo.after_of_writes_sub hostOps0 _ hostOps0_writes (r := main_arg11) (by decide)
    _ = m ((c : Thread nD τ).loc main_arg11) := rfl
theorem E4_main_arg12 (c : Dev nD) : E4 m ρ c (Proc.devRef .tc main_arg12) = m ((c : Thread nD τ).loc main_arg12) :=
  calc E4 m ρ c (Proc.devRef .tc main_arg12)
    _ = E3 m ρ c (Proc.devRef .tc main_arg12) := E4_of_ne m ρ c main_arg12 (by decide)
    _ = E2 m ρ c (Proc.devRef .tc main_arg12) := StableHlo.after_of_writes_sub hostOps1 _ hostOps1_writes (r := main_arg12) (by decide)
    _ = E1 m ρ c (Proc.devRef .tc main_arg12) := E2_of_ne m ρ c main_arg12 (by decide)
    _ = E0 m ρ c (Proc.devRef .tc main_arg12) := StableHlo.after_of_writes_sub hostOps0 _ hostOps0_writes (r := main_arg12) (by decide)
    _ = m ((c : Thread nD τ).loc main_arg12) := rfl

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (E1v m ρ) c
  | ⟨1, _⟩ => fun c => dat1 (E3v m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E4 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at their final contents at
    the exit; the generator register and the scoped buffers no window stages into the invariant and out. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1v m ρ) c).loose
  hwaits := Pipeline.hwaits_of_owed_zero _ _ _ _ L lv 0 fun _ _ => rfl
  pre c := iprop(StableHlo.held (c : Thread nD τ) (Pipeline.ucRefs τ sig) (E1 m ρ c) ∗ R c)
  post c := iprop(StableHlo.held (c : Thread nD τ) (Pipeline.ucRefs τ sig) (E2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1v m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1v m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (E1v m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1v m ρ c) (E2v m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at their final contents at
    the exit; the generator register and the scoped buffers no window stages into the invariant and out. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3v m ρ) c).loose
  hwaits := Pipeline.hwaits_of_owed_zero _ _ _ _ L lv 1 fun _ _ => rfl
  pre c := iprop(StableHlo.held (c : Thread nD τ) (Pipeline.ucRefs τ sig) (E3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3v m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3v m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3v m ρ c) (E4v m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev psegs : List (Pipeline.Seg (pcfgs (F := F)) padm (pdats m ρ) () defs₀ 𝒱₀ L lv) :=
  [ .host (hseg hostOps0 hostOps0_sub hostOps0_fresh (E0 m ρ)),
    .region (reg0 m ρ),
    .host (hseg hostOps1 hostOps1_sub hostOps1_fresh (E2 m ρ)),
    .region (reg1 m ρ) ]
theorem main_run (c : Dev nD) : main (F := F) c = Pipeline.Seg.run (psegs m ρ) := (main_chain c).trans (by chain_rfl)

set_option backward.isDefEq.respectTransparency.types false in
/-- THE RUN: from any memory with zero counters every weakly fair execution of @main terminates, nothing faulting,
    and every final state holds every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = E4 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m ρ c b)
    (hfin := fun c s' => by
      iintro ⟨⟨Hh, -⟩, HSI⟩
      unfold StableHlo.held
      imodintro
      iapply (pointsTo_read_all (Pipeline.ucRefs τ sig) (fun b => (((c : Thread nD τ)).1, b)) (E4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (E4_main_arg0 m ρ c),
      (h c _ (mem_uc main_arg1 (by decide))).trans (E4_main_arg1 m ρ c),
      (h c _ (mem_uc main_arg2 (by decide))).trans (E4_main_arg2 m ρ c),
      (h c _ (mem_uc main_arg3 (by decide))).trans (E4_main_arg3 m ρ c),
      (h c _ (mem_uc main_arg4 (by decide))).trans (E4_main_arg4 m ρ c),
      (h c _ (mem_uc main_arg5 (by decide))).trans (E4_main_arg5 m ρ c),
      (h c _ (mem_uc main_arg6 (by decide))).trans (E4_main_arg6 m ρ c),
      (h c _ (mem_uc main_arg7 (by decide))).trans (E4_main_arg7 m ρ c),
      (h c _ (mem_uc main_arg8 (by decide))).trans (E4_main_arg8 m ρ c),
      (h c _ (mem_uc main_arg9 (by decide))).trans (E4_main_arg9 m ρ c),
      (h c _ (mem_uc main_arg10 (by decide))).trans (E4_main_arg10 m ρ c),
      (h c _ (mem_uc main_arg11 (by decide))).trans (E4_main_arg11 m ρ c),
      (h c _ (mem_uc main_arg12 (by decide))).trans (E4_main_arg12 m ρ c)⟩) (run_main m ρ)

/-- THE RESULT: the result array ends at what the second layer's write-backs leave, beside the frame. -/
theorem run_result : θ_run defs (onTc (τ := τ) (main (F := F))) ⟨m, fun _ => 0, ρ⟩ (fun r => ∀ c : Dev nD,
      r.2.mem ((c.tc : Thread nD τ).loc main_v6) = (dat1 (E3v m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v6 (by decide))).trans (E4_arr m ρ c 7),
      (h c _ (mem_uc main_arg0 (by decide))).trans (E4_main_arg0 m ρ c),
      (h c _ (mem_uc main_arg1 (by decide))).trans (E4_main_arg1 m ρ c),
      (h c _ (mem_uc main_arg2 (by decide))).trans (E4_main_arg2 m ρ c),
      (h c _ (mem_uc main_arg3 (by decide))).trans (E4_main_arg3 m ρ c),
      (h c _ (mem_uc main_arg4 (by decide))).trans (E4_main_arg4 m ρ c),
      (h c _ (mem_uc main_arg5 (by decide))).trans (E4_main_arg5 m ρ c),
      (h c _ (mem_uc main_arg6 (by decide))).trans (E4_main_arg6 m ρ c),
      (h c _ (mem_uc main_arg7 (by decide))).trans (E4_main_arg7 m ρ c),
      (h c _ (mem_uc main_arg8 (by decide))).trans (E4_main_arg8 m ρ c),
      (h c _ (mem_uc main_arg9 (by decide))).trans (E4_main_arg9 m ρ c),
      (h c _ (mem_uc main_arg10 (by decide))).trans (E4_main_arg10 m ρ c),
      (h c _ (mem_uc main_arg11 (by decide))).trans (E4_main_arg11 m ρ c),
      (h c _ (mem_uc main_arg12 (by decide))).trans (E4_main_arg12 m ρ c)⟩) (run_main m ρ)

end Cert.Kernel.Frame

end
-- ==== Proof.KernelIdeal.Region0.lean ====
/-
  The first propagation layer's launch, half of its frame. Its kernel keeps the input projection
  h0 = tanh (x · W_inᵀ + b_in) in a scratch buffer of its own: the first of the fifty grid points computes it from the
  whole blocks of x, W_in and the bias row and stores it there; every point then reads the scratch, multiplies one
  strip of 200 rows of each adjacency matrix into it, and stores the strip's 200 x 128 result. So the body has two
  cases, and the region's invariant says what the scratch holds: anything before the first point, the projection of
  the first point's blocks afterwards. Stated for every float instance, at any contents `V` of the core's buffers
  when the region is entered.
-/
import proofs.«163664_g26603027432195_retrytranche2_1891_18_alg».proof.Proof.Gen.KernelIdeal.Launch
import proofs.«163664_g26603027432195_retrytranche2_1891_18_alg».proof.Proof.Gen.KernelIdeal.Skeleton
import proofs.«163664_g26603027432195_retrytranche2_1891_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and both stores go through the whole rectangle of their buffer -/

abbrev r0_S10000x128 : Rect S10000x128 := Rect.unit (s := S10000x128) ![0, 0] S10000x128.size inb_S10000x128_S10000x128_0_0
abbrev r0_S200x10000 : Rect S200x10000 := Rect.unit (s := S200x10000) ![0, 0] S200x10000.size inb_S200x10000_S200x10000_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0
abbrev r0_S200x128 : Rect S200x128 := Rect.unit (s := S200x128) ![0, 0] S200x128.size inb_S200x128_S200x128_0_0

/-! ## What the body leaves in the scratch and in the output window's buffer -/

/-- The scratch after the first point's store: the projection's payload over the loaded blocks. -/
def scr0 (x0 : Vec F S10000x128 .f32) (x1 : Vec F S128x128 .f32) (x2 : Vec F S1x128 .f32) : Vec F S10000x128 .f32 :=
  View.canon [⟨r0_S10000x128, k0_pay1 (View.ld x0 r0_S10000x128) (View.ld x1 r0_S128x128) (View.ld x2 r0_S1x128)⟩]

/-- That store covers the scratch. -/
theorem scover0 (p0 : Vec F S10000x128 .f32) (y : S10000x128.Idx) :
    ∃ pc ∈ ([⟨r0_S10000x128, p0⟩] : List (View.Piece (Elt F) S10000x128 .f32)), y ∈ pc.1.set :=
  View.cover_of_tiled [⟨r0_S10000x128, p0⟩] S10000x128.size (by rfl) y

/-- The output's staging buffer after the body, from what the scratch holds (`s`) and the strip's blocks. -/
def out0_9 (s : Vec F S10000x128 .f32) (x3 x4 : Vec F S200x10000 .f32) (x5 x6 : Vec F S128x128 .f32) (x7 x8 : Vec F S1x128 .f32) : Vec F S200x128 .f32 :=
  View.canon [⟨r0_S200x128, k0_pay2 (View.ld s r0_S10000x128) (View.ld x3 r0_S200x10000) (View.ld x4 r0_S200x10000) (View.ld x5 r0_S128x128) (View.ld x7 r0_S1x128) (View.ld x6 r0_S128x128) (View.ld x8 r0_S1x128)⟩]

/-- The one store covers the output's buffer. -/
theorem cover0_9 (p0 : Vec F S200x128 .f32) (y : S200x128.Idx) :
    ∃ pc ∈ ([⟨r0_S200x128, p0⟩] : List (View.Piece (Elt F) S200x128 .f32)), y ∈ pc.1.set :=
  View.cover_of_tiled [⟨r0_S200x128, p0⟩] S200x128.size (by rfl) y

/-! ## The branch: the body's `scf.if` asks whether the grid coordinate is zero -/

/-- The condition of the body's one branch, from the grid coordinate. -/
abbrev cond0 (i : grid0.Coords) : Prop := (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-! ## The body's triples -/

set_option maxHeartbeats 8000000 in
/-- THE FIRST POINT. The inputs' memrefs at contents `xW`, the output's and the scratch at anything: the body stores the
    projection into the scratch, reads it back, and leaves the output at `out0_9` of it. -/
theorem sound_kernel0_A (c : Dev nD) (E : Set ℕ) (i : grid0.Coords) (hc : cond0 i) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .f32) (harg11 : arg11.IsWhole)
    (x0 : Vec F S10000x128 .f32) (x1 : Vec F S128x128 .f32) (x2 : Vec F S1x128 .f32) (x3 : Vec F S200x10000 .f32) (x4 : Vec F S200x10000 .f32) (x5 : Vec F S128x128 .f32) (x6 : Vec F S128x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 (scr0 x0 x1 x2) x3 x4 x5 x6 x7 x8) ∗ owns (c : Thread nD τ) arg11 fullShare (scr0 x0 x1 x2)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10 arg11 harg11) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    unfold out0_9 scr0
    sl_unfold_run_names
    rw [View.readCov_eq_canon_ld _ _ r0_S10000x128 (scover0 _)]
    rfl
  iexists _; isplitr
  swap; · iexact H10
  ipureintro
  exact View.read_writes_eq_canon _ _ _ (scover0 _)

set_option maxHeartbeats 8000000 in
/-- EVERY LATER POINT. The scratch holds `s`: the body leaves it there and the output at `out0_9 s` of the strip. -/
theorem sound_kernel0_B (c : Dev nD) (E : Set ℕ) (i : grid0.Coords) (hc : ¬cond0 i) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .f32) (harg11 : arg11.IsWhole)
    (x0 : Vec F S10000x128 .f32) (x1 : Vec F S128x128 .f32) (x2 : Vec F S1x128 .f32) (x3 : Vec F S200x10000 .f32) (x4 : Vec F S200x10000 .f32) (x5 : Vec F S128x128 .f32) (x6 : Vec F S128x128 .f32) (x7 : Vec F S1x128 .f32) (x8 : Vec F S1x128 .f32) (s : Vec F S10000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 s x3 x4 x5 x6 x7 x8) ∗ owns (c : Thread nD τ) arg11 fullShare s) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10 arg11 harg11) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  subst hf0; subst hf1; subst hf2; subst hf3; subst hf4; subst hf5; subst hf6; subst hf7; subst hf8; subst hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists f10; isplitr; · ipureintro; rfl
  iexact H10

/-! ## The region's invariant: what the scratch holds between points -/

/-- The scratch operand: a whole scoped buffer of the kernel's own, passed beside the windows. -/
abbrev scM0 : Memref sig .tc .vmem S10000x128 .f32 := Memref.whole cc0_scratch0

/-- The core's other scoped buffers that are no staging buffer of this pipeline (the second layer's staging
    buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class's invariant (the scoped buffers no window stages, the generator register) with the scratch set apart. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-- The grid's first point. -/
def t0 : Fin cfg0.N := ⟨0, by rw [show cfg0.N = 50 from N_0]; decide⟩

/-- What the scratch holds from the first point on: the projection of the first point's blocks of x, W_in and the
    bias row (those three windows' blocks are the whole arrays at every point). -/
def S0 (c : Dev nD) : Vec F S10000x128 .f32 := scr0 (iblk0 V c 0 t0) (iblk0 V c 1 t0) (iblk0 V c 2 t0)

/-- The invariant before position `n`: before the first point the class's (the scratch at anything); afterwards
    the scratch at `S0`, the other scoped buffers at anything, the generator register at some state. -/
def Phi0 (c : Dev nD) : ℕ → sProp 𝕄
  | 0 => Pipeline.ΦA spec0 c
  | _ + 1 => iprop((owns (c : Thread nD τ) scM0 fullShare (S0 V c) ∗ others0 c) ∗ (∃ r, prngReg c r))

theorem Phi0_pos (c : Dev nD) (n : ℕ) (hz : n ≠ 0) :
    Phi0 V c n = iprop((owns (c : Thread nD τ) scM0 fullShare (S0 V c) ∗ others0 c) ∗ (∃ r, prngReg c r)) := by
  cases n with
  | zero => exact absurd rfl hz
  | succ n => rfl

/-! ## The pipeline's proof data -/

/-- The proof data of the first layer's pipeline on core `c`: the arrays as the region finds them; after the body
    at point `t` each input's buffer at its block and the output's at `out0_9` of the scratch's contents `S0` and
    the strip's blocks — at every point, the first included; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (S0 V c) (iblk0 V c 3 t) (iblk0 V c 4 t) (iblk0 V c 5 t) (iblk0 V c 6 t) (iblk0 V c 7 t) (iblk0 V c 8 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (S0 V c) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) :
    (dat0 V c).Φ t.succ = iprop((owns (c : Thread nD τ) scM0 fullShare (S0 V c) ∗ others0 c) ∗ (∃ r, prngReg c r)) := rfl

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 8000000 in
/-- The body at any point: the inputs' memrefs hold their blocks; at the first point the invariant hands the body
    the scratch at anything and takes it back at `S0`; at every later point it hands it over at `S0` and takes it
    back unchanged; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, Phi_succ0, Phi_castSucc0]
  by_cases hz : t.val = 0
  · obtain rfl : t = t0 := Fin.ext hz
    rw [show Phi0 V c (t0 : Fin cfg0.N).val = Pipeline.ΦA spec0 c from rfl, PhiA0_eq]
    iintro ⟨⟨⟨⟨%ds, HS⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ (grid0.coords t0) ((hcond0 t0).mpr rfl) _ _ _ _ _ _ _ _ _ _ _ _ _ _ _ _ _ _ _ _ _ _ (iblk0 V c 0 t0) (iblk0 V c 1 t0) (iblk0 V c 2 t0) (iblk0 V c 3 t0) (iblk0 V c 4 t0) (iblk0 V c 5 t0) (iblk0 V c 6 t0) (iblk0 V c 7 t0) (iblk0 V c 8 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexists _; iexact HS
    iintro ⟨H0, H1, H2, H3, H4, H5, H6, H7, H8, H9, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi0_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ (grid0.coords t) (fun h => hz ((hcond0 t).mp h)) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (S0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last, show cfg0.N = 50 from N_0]; decide), PhiA0_eq]
  iintro ⟨⟨HS, Hoth⟩, Hg⟩
  isplitl [HS Hoth]
  · isplitl [HS]; · iexists _; iexact HS
    iexact Hoth
  iexact Hg

end Cert.KernelIdeal.Frame

end
-- ==== Proof.KernelIdeal.Region1.lean ====
/-
  The second propagation layer's launch, half of its frame: at any contents `V` of the core's buffers when the
  region is entered, what each of the fifty grid points reads (the whole matrix h, one strip of 200 rows of each
  adjacency matrix, the two weight matrices, the two bias rows) and what it leaves in the output's staging buffer
  (one store of the whole 200 x 128 block: tanh of the two products plus biases), the body's triple, the proof data
  and the body obligation. Stated for every float instance.
-/
import proofs.«163664_g26603027432195_retrytranche2_1891_18_alg».proof.Proof.Gen.KernelIdeal.Launch
import proofs.«163664_g26603027432195_retrytranche2_1891_18_alg».proof.Proof.Gen.KernelIdeal.Skeleton
import proofs.«163664_g26603027432195_retrytranche2_1891_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: an unfetched
    window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole rectangle of their buffer -/

abbrev r1_S10000x128 : Rect S10000x128 := Rect.unit (s := S10000x128) ![0, 0] S10000x128.size inb_S10000x128_S10000x128_0_0
abbrev r1_S200x10000 : Rect S200x10000 := Rect.unit (s := S200x10000) ![0, 0] S200x10000.size inb_S200x10000_S200x10000_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0
abbrev r1_S200x128 : Rect S200x128 := Rect.unit (s := S200x128) ![0, 0] S200x128.size inb_S200x128_S200x128_0_0

/-! ## What the body leaves in the output window's buffer -/

/-- The output's staging buffer after the body: its one store, of the strip's payload over the loaded blocks. -/
def out1_7 (x0 : Vec F S10000x128 .f32) (x1 : Vec F S200x10000 .f32) (x2 : Vec F S200x10000 .f32) (x3 : Vec F S128x128 .f32) (x4 : Vec F S128x128 .f32) (x5 : Vec F S1x128 .f32) (x6 : Vec F S1x128 .f32) : Vec F S200x128 .f32 :=
  View.canon [⟨r1_S200x128, k1_pay1 (View.ld x0 r1_S10000x128) (View.ld x1 r1_S200x10000) (View.ld x2 r1_S200x10000) (View.ld x3 r1_S128x128) (View.ld x5 r1_S1x128) (View.ld x4 r1_S128x128) (View.ld x6 r1_S1x128)⟩]

/-- The one store covers the buffer. -/
theorem cover1_7 (p0 : Vec F S200x128 .f32) (y : S200x128.Idx) :
    ∃ pc ∈ ([⟨r1_S200x128, p0⟩] : List (View.Piece (Elt F) S200x128 .f32)), y ∈ pc.1.set :=
  View.cover_of_tiled [⟨r1_S200x128, p0⟩] S200x128.size (by rfl) y

/-! ## The body's triple -/

set_option maxHeartbeats 4000000 in
/-- The body on whole staging memrefs, the inputs' at contents `xW` and the output's at anything, runs to the
    continuation holding the inputs' as they were and the output's at `out1_7` of the inputs'. -/
theorem sound_kernel1 (c : Dev nD) (E : Set ℕ) (i : grid1.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S200x128 .f32) (harg8 : arg8.IsWhole)
    (x0 : Vec F S10000x128 .f32) (x1 : Vec F S200x10000 .f32) (x2 : Vec F S200x10000 .f32) (x3 : Vec F S128x128 .f32) (x4 : Vec F S128x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__layer2_kernel i arg1 harg1 arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the second layer's pipeline on core `c`: the arrays as the region finds them; after the body
    at point `t` each input's buffer at its block and the output's at `out1_7` of the blocks; the invariant the scoped
    buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdeal.Run.lean ====
/-
  The run of the whole program: the three bias reshapes, the first layer's launch, the two bias reshapes, the second
  layer's launch. The contents of the core's buffers at every boundary are a fold from the launch memory (a host
  stretch's operations applied; a region's arrays at what its write-backs leave, every other buffer as entered), and
  every weakly fair execution terminates with every unscoped buffer at the last boundary's contents. Read at the
  argument arrays this is the frame (no stretch and no region writes an argument); read at the result array it is what
  the second layer's fifty write-backs leave. Stated for every float instance.
-/
import proofs.«163664_g26603027432195_retrytranche2_1891_18_alg».proof.Proof.KernelIdeal.Region0
import proofs.«163664_g26603027432195_retrytranche2_1891_18_alg».proof.Proof.KernelIdeal.Region1
import proofs.«163664_g26603027432195_retrytranche2_1891_18_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev E0 : Dev nD → Valuation τ sig (Elt F) := fun c b => (s₀ m ρ).mem ((c : Dev nD), b)
/-- After the first three reshapes (the first layer's entry). -/
abbrev E1 : Dev nD → Valuation τ sig (Elt F) := fun c => StableHlo.after hostOps0 (E0 m ρ c)
/-- The same read at the TensorCore's references. -/
abbrev E1v : (c : Dev nD) → (b : Ref sig .tc) → Buf (Elt F) ((c : Thread nD τ).loc b) := fun c b => E1 m ρ c b
/-- At the first layer's exit: its arrays at what the pipeline leaves, every other buffer as entered. -/
def E2 (c : Dev nD) : Valuation τ sig (Elt F) :=
  Pipeline.withArrays spec0 c (E1 m ρ c) fun w => (dat0 (E1v m ρ) c).arrAt w cfg0.N
theorem E2_arr (c : Dev nD) (w : Fin cfg0.W) :
    E2 m ρ c (Proc.devRef .tc (Pipeline.arrRef spec0 w)) = (dat0 (E1v m ρ) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev E2v : (c : Dev nD) → (b : Ref sig .tc) → Buf (Elt F) ((c : Thread nD τ).loc b) := fun c b => E2 m ρ c b
theorem hF0 (c : Dev nD) (w : Fin cfg0.W) : (dat0 (E1v m ρ) c).arrAt w cfg0.N = E2v m ρ c (Pipeline.arrRef spec0 w) :=
  (E2_arr m ρ c w).symm
theorem hrest0 (c : Dev nD) : ∀ b, b ∉ Finset.univ.image (Pipeline.arrRef spec0) → E2v m ρ c b = E1v m ρ c b :=
  fun b hb => E2_of_ne m ρ c b fun w e => hb (Finset.mem_image.mpr ⟨w, Finset.mem_univ _, e⟩)

/-- After the next two reshapes (the second layer's entry). -/
abbrev E3 : Dev nD → Valuation τ sig (Elt F) := fun c => StableHlo.after hostOps1 (E2 m ρ c)
abbrev E3v : (c : Dev nD) → (b : Ref sig .tc) → Buf (Elt F) ((c : Thread nD τ).loc b) := fun c b => E3 m ρ c b
/-- At the second layer's exit. -/
def E4 (c : Dev nD) : Valuation τ sig (Elt F) :=
  Pipeline.withArrays spec1 c (E3 m ρ c) fun w => (dat1 (E3v m ρ) c).arrAt w cfg1.N
theorem E4_arr (c : Dev nD) (w : Fin cfg1.W) :
    E4 m ρ c (Proc.devRef .tc (Pipeline.arrRef spec1 w)) = (dat1 (E3v m ρ) c).arrAt w cfg1.N := by
  unfold E4; exact Pipeline.withArrays_arr spec1 launch1.win.arr_inj c _ _ w
theorem E4_of_ne (c : Dev nD) (b : Ref sig .tc) (hb : ∀ w, Pipeline.arrRef spec1 w ≠ b) :
    E4 m ρ c (Proc.devRef .tc b) = E3 m ρ c (Proc.devRef .tc b) := by
  unfold E4; exact Pipeline.withArrays_of_ne spec1 c _ _ b hb
abbrev E4v : (c : Dev nD) → (b : Ref sig .tc) → Buf (Elt F) ((c : Thread nD τ).loc b) := fun c b => E4 m ρ c b
theorem hF1 (c : Dev nD) (w : Fin cfg1.W) : (dat1 (E3v m ρ) c).arrAt w cfg1.N = E4v m ρ c (Pipeline.arrRef spec1 w) :=
  (E4_arr m ρ c w).symm
theorem hrest1 (c : Dev nD) : ∀ b, b ∉ Finset.univ.image (Pipeline.arrRef spec1) → E4v m ρ c b = E3v m ρ c b :=
  fun b hb => E4_of_ne m ρ c b fun w e => hb (Finset.mem_image.mpr ⟨w, Finset.mem_univ _, e⟩)

/-! ### The arguments end as launched: no host operation and no region writes one -/

theorem E4_main_arg0 (c : Dev nD) : E4 m ρ c (Proc.devRef .tc main_arg0) = m ((c : Thread nD τ).loc main_arg0) :=
  calc E4 m ρ c (Proc.devRef .tc main_arg0)
    _ = E3 m ρ c (Proc.devRef .tc main_arg0) := E4_of_ne m ρ c main_arg0 (by decide)
    _ = E2 m ρ c (Proc.devRef .tc main_arg0) := StableHlo.after_of_writes_sub hostOps1 _ hostOps1_writes (r := main_arg0) (by decide)
    _ = E1 m ρ c (Proc.devRef .tc main_arg0) := (E2_arr m ρ c 0).trans (((dat0 (E1v m ρ) c).arrAt_in 0 rfl _).trans (A_eq0 (E1v m ρ) c 0))
    _ = E0 m ρ c (Proc.devRef .tc main_arg0) := StableHlo.after_of_writes_sub hostOps0 _ hostOps0_writes (r := main_arg0) (by decide)
    _ = m ((c : Thread nD τ).loc main_arg0) := rfl
theorem E4_main_arg1 (c : Dev nD) : E4 m ρ c (Proc.devRef .tc main_arg1) = m ((c : Thread nD τ).loc main_arg1) :=
  calc E4 m ρ c (Proc.devRef .tc main_arg1)
    _ = E3 m ρ c (Proc.devRef .tc main_arg1) := (E4_arr m ρ c 1).trans (((dat1 (E3v m ρ) c).arrAt_in 1 rfl _).trans (A_eq1 (E3v m ρ) c 1))
    _ = E2 m ρ c (Proc.devRef .tc main_arg1) := StableHlo.after_of_writes_sub hostOps1 _ hostOps1_writes (r := main_arg1) (by decide)
    _ = E1 m ρ c (Proc.devRef .tc main_arg1) := (E2_arr m ρ c 3).trans (((dat0 (E1v m ρ) c).arrAt_in 3 rfl _).trans (A_eq0 (E1v m ρ) c 3))
    _ = E0 m ρ c (Proc.devRef .tc main_arg1) := StableHlo.after_of_writes_sub hostOps0 _ hostOps0_writes (r := main_arg1) (by decide)
    _ = m ((c : Thread nD τ).loc main_arg1) := rfl
theorem E4_main_arg2 (c : Dev nD) : E4 m ρ c (Proc.devRef .tc main_arg2) = m ((c : Thread nD τ).loc main_arg2) :=
  calc E4 m ρ c (Proc.devRef .tc main_arg2)
    _ = E3 m ρ c (Proc.devRef .tc main_arg2) := (E4_arr m ρ c 2).trans (((dat1 (E3v m ρ) c).arrAt_in 2 rfl _).trans (A_eq1 (E3v m ρ) c 2))
    _ = E2 m ρ c (Proc.devRef .tc main_arg2) := StableHlo.after_of_writes_sub hostOps1 _ hostOps1_writes (r := main_arg2) (by decide)
    _ = E1 m ρ c (Proc.devRef .tc main_arg2) := (E2_arr m ρ c 4).trans (((dat0 (E1v m ρ) c).arrAt_in 4 rfl _).trans (A_eq0 (E1v m ρ) c 4))
    _ = E0 m ρ c (Proc.devRef .tc main_arg2) := StableHlo.after_of_writes_sub hostOps0 _ hostOps0_writes (r := main_arg2) (by decide)
    _ = m ((c : Thread nD τ).loc main_arg2) := rfl
theorem E4_main_arg3 (c : Dev nD) : E4 m ρ c (Proc.devRef .tc main_arg3) = m ((c : Thread nD τ).loc main_arg3) :=
  calc E4 m ρ c (Proc.devRef .tc main_arg3)
    _ = E3 m ρ c (Proc.devRef .tc main_arg3) := E4_of_ne m ρ c main_arg3 (by decide)
    _ = E2 m ρ c (Proc.devRef .tc main_arg3) := StableHlo.after_of_writes_sub hostOps1 _ hostOps1_writes (r := main_arg3) (by decide)
    _ = E1 m ρ c (Proc.devRef .tc main_arg3) := (E2_arr m ρ c 1).trans (((dat0 (E1v m ρ) c).arrAt_in 1 rfl _).trans (A_eq0 (E1v m ρ) c 1))
    _ = E0 m ρ c (Proc.devRef .tc main_arg3) := StableHlo.after_of_writes_sub hostOps0 _ hostOps0_writes (r := main_arg3) (by decide)
    _ = m ((c : Thread nD τ).loc main_arg3) := rfl
theorem E4_main_arg4 (c : Dev nD) : E4 m ρ c (Proc.devRef .tc main_arg4) = m ((c : Thread nD τ).loc main_arg4) :=
  calc E4 m ρ c (Proc.devRef .tc main_arg4)
    _ = E3 m ρ c (Proc.devRef .tc main_arg4) := E4_of_ne m ρ c main_arg4 (by decide)
    _ = E2 m ρ c (Proc.devRef .tc main_arg4) := StableHlo.after_of_writes_sub hostOps1 _ hostOps1_writes (r := main_arg4) (by decide)
    _ = E1 m ρ c (Proc.devRef .tc main_arg4) := E2_of_ne m ρ c main_arg4 (by decide)
    _ = E0 m ρ c (Proc.devRef .tc main_arg4) := StableHlo.after_of_writes_sub hostOps0 _ hostOps0_writes (r := main_arg4) (by decide)
    _ = m ((c : Thread nD τ).loc main_arg4) := rfl
theorem E4_main_arg5 (c : Dev nD) : E4 m ρ c (Proc.devRef .tc main_arg5) = m ((c : Thread nD τ).loc main_arg5) :=
  calc E4 m ρ c (Proc.devRef .tc main_arg5)
    _ = E3 m ρ c (Proc.devRef .tc main_arg5) := E4_of_ne m ρ c main_arg5 (by decide)
    _ = E2 m ρ c (Proc.devRef .tc main_arg5) := StableHlo.after_of_writes_sub hostOps1 _ hostOps1_writes (r := main_arg5) (by decide)
    _ = E1 m ρ c (Proc.devRef .tc main_arg5) := (E2_arr m ρ c 5).trans (((dat0 (E1v m ρ) c).arrAt_in 5 rfl _).trans (A_eq0 (E1v m ρ) c 5))
    _ = E0 m ρ c (Proc.devRef .tc main_arg5) := StableHlo.after_of_writes_sub hostOps0 _ hostOps0_writes (r := main_arg5) (by decide)
    _ = m ((c : Thread nD τ).loc main_arg5) := rfl
theorem E4_main_arg6 (c : Dev nD) : E4 m ρ c (Proc.devRef .tc main_arg6) = m ((c : Thread nD τ).loc main_arg6) :=
  calc E4 m ρ c (Proc.devRef .tc main_arg6)
    _ = E3 m ρ c (Proc.devRef .tc main_arg6) := E4_of_ne m ρ c main_arg6 (by decide)
    _ = E2 m ρ c (Proc.devRef .tc main_arg6) := StableHlo.after_of_writes_sub hostOps1 _ hostOps1_writes (r := main_arg6) (by decide)
    _ = E1 m ρ c (Proc.devRef .tc main_arg6) := E2_of_ne m ρ c main_arg6 (by decide)
    _ = E0 m ρ c (Proc.devRef .tc main_arg6) := StableHlo.after_of_writes_sub hostOps0 _ hostOps0_writes (r := main_arg6) (by decide)
    _ = m ((c : Thread nD τ).loc main_arg6) := rfl
theorem E4_main_arg7 (c : Dev nD) : E4 m ρ c (Proc.devRef .tc main_arg7) = m ((c : Thread nD τ).loc main_arg7) :=
  calc E4 m ρ c (Proc.devRef .tc main_arg7)
    _ = E3 m ρ c (Proc.devRef .tc main_arg7) := E4_of_ne m ρ c main_arg7 (by decide)
    _ = E2 m ρ c (Proc.devRef .tc main_arg7) := StableHlo.after_of_writes_sub hostOps1 _ hostOps1_writes (r := main_arg7) (by decide)
    _ = E1 m ρ c (Proc.devRef .tc main_arg7) := (E2_arr m ρ c 6).trans (((dat0 (E1v m ρ) c).arrAt_in 6 rfl _).trans (A_eq0 (E1v m ρ) c 6))
    _ = E0 m ρ c (Proc.devRef .tc main_arg7) := StableHlo.after_of_writes_sub hostOps0 _ hostOps0_writes (r := main_arg7) (by decide)
    _ = m ((c : Thread nD τ).loc main_arg7) := rfl
theorem E4_main_arg8 (c : Dev nD) : E4 m ρ c (Proc.devRef .tc main_arg8) = m ((c : Thread nD τ).loc main_arg8) :=
  calc E4 m ρ c (Proc.devRef .tc main_arg8)
    _ = E3 m ρ c (Proc.devRef .tc main_arg8) := E4_of_ne m ρ c main_arg8 (by decide)
    _ = E2 m ρ c (Proc.devRef .tc main_arg8) := StableHlo.after_of_writes_sub hostOps1 _ hostOps1_writes (r := main_arg8) (by decide)
    _ = E1 m ρ c (Proc.devRef .tc main_arg8) := E2_of_ne m ρ c main_arg8 (by decide)
    _ = E0 m ρ c (Proc.devRef .tc main_arg8) := StableHlo.after_of_writes_sub hostOps0 _ hostOps0_writes (r := main_arg8) (by decide)
    _ = m ((c : Thread nD τ).loc main_arg8) := rfl
theorem E4_main_arg9 (c : Dev nD) : E4 m ρ c (Proc.devRef .tc main_arg9) = m ((c : Thread nD τ).loc main_arg9) :=
  calc E4 m ρ c (Proc.devRef .tc main_arg9)
    _ = E3 m ρ c (Proc.devRef .tc main_arg9) := (E4_arr m ρ c 3).trans (((dat1 (E3v m ρ) c).arrAt_in 3 rfl _).trans (A_eq1 (E3v m ρ) c 3))
    _ = E2 m ρ c (Proc.devRef .tc main_arg9) := StableHlo.after_of_writes_sub hostOps1 _ hostOps1_writes (r := main_arg9) (by decide)
    _ = E1 m ρ c (Proc.devRef .tc main_arg9) := E2_of_ne m ρ c main_arg9 (by decide)
    _ = E0 m ρ c (Proc.devRef .tc main_arg9) := StableHlo.after_of_writes_sub hostOps0 _ hostOps0_writes (r := main_arg9) (by decide)
    _ = m ((c : Thread nD τ).loc main_arg9) := rfl
theorem E4_main_arg10 (c : Dev nD) : E4 m ρ c (Proc.devRef .tc main_arg10) = m ((c : Thread nD τ).loc main_arg10) :=
  calc E4 m ρ c (Proc.devRef .tc main_arg10)
    _ = E3 m ρ c (Proc.devRef .tc main_arg10) := E4_of_ne m ρ c main_arg10 (by decide)
    _ = E2 m ρ c (Proc.devRef .tc main_arg10) := StableHlo.after_of_writes_sub hostOps1 _ hostOps1_writes (r := main_arg10) (by decide)
    _ = E1 m ρ c (Proc.devRef .tc main_arg10) := E2_of_ne m ρ c main_arg10 (by decide)
    _ = E0 m ρ c (Proc.devRef .tc main_arg10) := StableHlo.after_of_writes_sub hostOps0 _ hostOps0_writes (r := main_arg10) (by decide)
    _ = m ((c : Thread nD τ).loc main_arg10) := rfl
theorem E4_main_arg11 (c : Dev nD) : E4 m ρ c (Proc.devRef .tc main_arg11) = m ((c : Thread nD τ).loc main_arg11) :=
  calc E4 m ρ c (Proc.devRef .tc main_arg11)
    _ = E3 m ρ c (Proc.devRef .tc main_arg11) := (E4_arr m ρ c 4).trans (((dat1 (E3v m ρ) c).arrAt_in 4 rfl _).trans (A_eq1 (E3v m ρ) c 4))
    _ = E2 m ρ c (Proc.devRef .tc main_arg11) := StableHlo.after_of_writes_sub hostOps1 _ hostOps1_writes (r := main_arg11) (by decide)
    _ = E1 m ρ c (Proc.devRef .tc main_arg11) := E2_of_ne m ρ c main_arg11 (by decide)
    _ = E0 m ρ c (Proc.devRef .tc main_arg11) := StableHlo.after_of_writes_sub hostOps0 _ hostOps0_writes (r := main_arg11) (by decide)
    _ = m ((c : Thread nD τ).loc main_arg11) := rfl
theorem E4_main_arg12 (c : Dev nD) : E4 m ρ c (Proc.devRef .tc main_arg12) = m ((c : Thread nD τ).loc main_arg12) :=
  calc E4 m ρ c (Proc.devRef .tc main_arg12)
    _ = E3 m ρ c (Proc.devRef .tc main_arg12) := E4_of_ne m ρ c main_arg12 (by decide)
    _ = E2 m ρ c (Proc.devRef .tc main_arg12) := StableHlo.after_of_writes_sub hostOps1 _ hostOps1_writes (r := main_arg12) (by decide)
    _ = E1 m ρ c (Proc.devRef .tc main_arg12) := E2_of_ne m ρ c main_arg12 (by decide)
    _ = E0 m ρ c (Proc.devRef .tc main_arg12) := StableHlo.after_of_writes_sub hostOps0 _ hostOps0_writes (r := main_arg12) (by decide)
    _ = m ((c : Thread nD τ).loc main_arg12) := rfl

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (E1v m ρ) c
  | ⟨1, _⟩ => fun c => dat1 (E3v m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E4 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at their final contents at
    the exit; the generator register and the scoped buffers no window stages into the invariant and out. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1v m ρ) c).loose
  hwaits := Pipeline.hwaits_of_owed_zero _ _ _ _ L lv 0 fun _ _ => rfl
  pre c := iprop(StableHlo.held (c : Thread nD τ) (Pipeline.ucRefs τ sig) (E1 m ρ c) ∗ R c)
  post c := iprop(StableHlo.held (c : Thread nD τ) (Pipeline.ucRefs τ sig) (E2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1v m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1v m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (E1v m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1v m ρ c) (E2v m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at their final contents at
    the exit; the generator register and the scoped buffers no window stages into the invariant and out. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3v m ρ) c).loose
  hwaits := Pipeline.hwaits_of_owed_zero _ _ _ _ L lv 1 fun _ _ => rfl
  pre c := iprop(StableHlo.held (c : Thread nD τ) (Pipeline.ucRefs τ sig) (E3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3v m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3v m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3v m ρ c) (E4v m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev psegs : List (Pipeline.Seg (pcfgs (F := F)) padm (pdats m ρ) () defs₀ 𝒱₀ L lv) :=
  [ .host (hseg hostOps0 hostOps0_sub hostOps0_fresh (E0 m ρ)),
    .region (reg0 m ρ),
    .host (hseg hostOps1 hostOps1_sub hostOps1_fresh (E2 m ρ)),
    .region (reg1 m ρ) ]
theorem main_run (c : Dev nD) : main (F := F) c = Pipeline.Seg.run (psegs m ρ) := (main_chain c).trans (by chain_rfl)

set_option backward.isDefEq.respectTransparency.types false in
/-- THE RUN: from any memory with zero counters every weakly fair execution of @main terminates, nothing faulting,
    and every final state holds every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = E4 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m ρ c b)
    (hfin := fun c s' => by
      iintro ⟨⟨Hh, -⟩, HSI⟩
      unfold StableHlo.held
      imodintro
      iapply (pointsTo_read_all (Pipeline.ucRefs τ sig) (fun b => (((c : Thread nD τ)).1, b)) (E4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (E4_main_arg0 m ρ c),
      (h c _ (mem_uc main_arg1 (by decide))).trans (E4_main_arg1 m ρ c),
      (h c _ (mem_uc main_arg2 (by decide))).trans (E4_main_arg2 m ρ c),
      (h c _ (mem_uc main_arg3 (by decide))).trans (E4_main_arg3 m ρ c),
      (h c _ (mem_uc main_arg4 (by decide))).trans (E4_main_arg4 m ρ c),
      (h c _ (mem_uc main_arg5 (by decide))).trans (E4_main_arg5 m ρ c),
      (h c _ (mem_uc main_arg6 (by decide))).trans (E4_main_arg6 m ρ c),
      (h c _ (mem_uc main_arg7 (by decide))).trans (E4_main_arg7 m ρ c),
      (h c _ (mem_uc main_arg8 (by decide))).trans (E4_main_arg8 m ρ c),
      (h c _ (mem_uc main_arg9 (by decide))).trans (E4_main_arg9 m ρ c),
      (h c _ (mem_uc main_arg10 (by decide))).trans (E4_main_arg10 m ρ c),
      (h c _ (mem_uc main_arg11 (by decide))).trans (E4_main_arg11 m ρ c),
      (h c _ (mem_uc main_arg12 (by decide))).trans (E4_main_arg12 m ρ c)⟩) (run_main m ρ)

/-- THE RESULT: the result array ends at what the second layer's write-backs leave, beside the frame. -/
theorem run_result : θ_run defs (onTc (τ := τ) (main (F := F))) ⟨m, fun _ => 0, ρ⟩ (fun r => ∀ c : Dev nD,
      r.2.mem ((c.tc : Thread nD τ).loc main_v6) = (dat1 (E3v m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v6 (by decide))).trans (E4_arr m ρ c 7),
      (h c _ (mem_uc main_arg0 (by decide))).trans (E4_main_arg0 m ρ c),
      (h c _ (mem_uc main_arg1 (by decide))).trans (E4_main_arg1 m ρ c),
      (h c _ (mem_uc main_arg2 (by decide))).trans (E4_main_arg2 m ρ c),
      (h c _ (mem_uc main_arg3 (by decide))).trans (E4_main_arg3 m ρ c),
      (h c _ (mem_uc main_arg4 (by decide))).trans (E4_main_arg4 m ρ c),
      (h c _ (mem_uc main_arg5 (by decide))).trans (E4_main_arg5 m ρ c),
      (h c _ (mem_uc main_arg6 (by decide))).trans (E4_main_arg6 m ρ c),
      (h c _ (mem_uc main_arg7 (by decide))).trans (E4_main_arg7 m ρ c),
      (h c _ (mem_uc main_arg8 (by decide))).trans (E4_main_arg8 m ρ c),
      (h c _ (mem_uc main_arg9 (by decide))).trans (E4_main_arg9 m ρ c),
      (h c _ (mem_uc main_arg10 (by decide))).trans (E4_main_arg10 m ρ c),
      (h c _ (mem_uc main_arg11 (by decide))).trans (E4_main_arg11 m ρ c),
      (h c _ (mem_uc main_arg12 (by decide))).trans (E4_main_arg12 m ρ c)⟩) (run_main m ρ)

end Cert.KernelIdeal.Frame

end
-- ==== Proof.Spec.lean ====
/-
  The specification. A signed graph network's forward pass over the extended reals, entry by entry:
  an input projection  h0 = tanh (x · W_inᵀ + b_in),  then two propagation layers
      h ↦ tanh ((A⁺·h)·Wpᵀ + bp  +  ((A⁻·h)·Wnᵀ + bn)),
  each matrix product the plain sum of products over its one contracted coordinate, the sums grouped exactly
  as written here. Both programs compute this function with this grouping, so nothing below needs an algebraic
  law of the extended reals beyond reading a sum at an index.
-/
import Idealize.ShloMosaic.PureOps.Ideal
import Idealize.ShloMosaic.Lib.ValueIdx

noncomputable section

open scoped BigOperators

namespace Cert.Spec

open Idealize.ShloMosaic Idealize.ShloMosaic.ValueIdx

/-- A matrix of `a` rows and `b` columns of extended reals, read at a rank-2 index. -/
abbrev Mat (a b : Nat) : Type := FVec Ideal (⟨2, ![a, b]⟩ : Shape) .f32
/-- A vector of `a` extended reals. -/
abbrev Vc (a : Nat) : Type := FVec Ideal (⟨1, ![a]⟩ : Shape) .f32

/-- Entry (p, q) of tanh (x · wᵀ + b): the features of node `p` against row `q` of the weights. -/
def projAt (x : Mat 10000 128) (w : Mat 128 128) (b : Vc 128) (p : Fin 10000) (q : Fin 128) : EReal :=
  Ideal.tanh ((∑ k : Fin 128, x (ix2 p k) * w (ix2 q k)) + b (ix1 q))

/-- The input projection as a matrix. -/
def proj (x : Mat 10000 128) (w : Mat 128 128) (b : Vc 128) : Mat 10000 128 :=
  fun i => projAt x w b (i 0) (i 1)

/-- Entry (p, k) of a · h: node `p`'s neighbourhood sum of feature `k`. -/
def propAt (a : Mat 10000 10000) (h : Mat 10000 128) (p : Fin 10000) (k : Fin 128) : EReal :=
  ∑ n : Fin 10000, a (ix2 p n) * h (ix2 n k)

/-- Entry (p, q) of one propagation layer. -/
def layerAt (h : Mat 10000 128) (ap an : Mat 10000 10000) (wp : Mat 128 128) (bp : Vc 128) (wn : Mat 128 128) (bn : Vc 128)
    (p : Fin 10000) (q : Fin 128) : EReal :=
  Ideal.tanh (((∑ k : Fin 128, propAt ap h p k * wp (ix2 q k)) + bp (ix1 q))
    + ((∑ k : Fin 128, propAt an h p k * wn (ix2 q k)) + bn (ix1 q)))

/-- One propagation layer as a matrix. -/
def layer (h : Mat 10000 128) (ap an : Mat 10000 10000) (wp : Mat 128 128) (bp : Vc 128) (wn : Mat 128 128) (bn : Vc 128) :
    Mat 10000 128 :=
  fun i => layerAt h ap an wp bp wn bn (i 0) (i 1)

/-- The whole forward pass: the projection, then the two layers over the same two adjacency matrices. -/
def G (x : Mat 10000 128) (ap an : Mat 10000 10000) (win : Mat 128 128) (bin : Vc 128)
    (wp0 : Mat 128 128) (bp0 : Vc 128) (wn0 : Mat 128 128) (bn0 : Vc 128)
    (wp1 : Mat 128 128) (bp1 : Vc 128) (wn1 : Mat 128 128) (bn1 : Vc 128) : Mat 10000 128 :=
  layer (layer (proj x win bin) ap an wp0 bp0 wn0 bn0) ap an wp1 bp1 wn1 bn1

theorem proj_apply (x : Mat 10000 128) (w : Mat 128 128) (b : Vc 128) (p : Fin 10000) (q : Fin 128) :
    proj x w b (ix2 p q) = projAt x w b p q := rfl

theorem layer_apply (h : Mat 10000 128) (ap an : Mat 10000 10000) (wp : Mat 128 128) (bp : Vc 128) (wn : Mat 128 128) (bn : Vc 128)
    (p : Fin 10000) (q : Fin 128) : layer h ap an wp bp wn bn (ix2 p q) = layerAt h ap an wp bp wn bn p q := rfl

end Cert.Spec

end
-- ==== Proof.PayValue.lean ====
/-
  The three payloads read at an index, over the extended reals.

  Each payload is a short chain: a matrix product accumulated into the zero matrix, a one-row bias cast to its
  own shape and repeated down the rows, entrywise sums, and an entrywise tanh. Read at entry (p, q):
    * a product l·rᵀ into zero is  ∑ k, l (p, k) * r (q, k),
    * a product l·r into zero is   ∑ n, l (p, n) * r (n, q),
    * the repeated bias row is     b (0, q),
  and the entrywise operations read entrywise. Composing these gives
    tanh (x·wᵀ + b)                                        for the input projection, and
    tanh ((A⁺·h)·Wpᵀ + bp + ((A⁻·h)·Wnᵀ + bn))             for a strip of rows of a propagation layer,
  with the sums grouped exactly as written. No law of the extended reals is used beyond 0 + s = s for the zero
  accumulator, which the product's index lemma already contains.
-/
import proofs.«163664_g26603027432195_retrytranche2_1891_18_alg».proof.Proof.Spec
import proofs.«163664_g26603027432195_retrytranche2_1891_18_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PayValue

open Idealize.ShloMosaic Idealize.ShloMosaic.ValueIdx Cert.KernelIdeal Cert.KernelIdeal.Gen

/-! The operand coordinates of `dot_S10000x128_S128x128_S10000x128_1_1_0_0_n_n` at a result index and a contraction position. -/

theorem mm_proj_l0 (j : S10000x128.Idx) (c : dot_S10000x128_S128x128_S10000x128_1_1_0_0_n_n.contr.Idx) : (dot_S10000x128_S128x128_S10000x128_1_1_0_0_n_n.lhsIdx j c 0).val = (j 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl
theorem mm_proj_l1 (j : S10000x128.Idx) (c : dot_S10000x128_S128x128_S10000x128_1_1_0_0_n_n.contr.Idx) : (dot_S10000x128_S128x128_S10000x128_1_1_0_0_n_n.lhsIdx j c 1).val = (c ⟨0, by decide⟩).val :=
  dot_S10000x128_S128x128_S10000x128_1_1_0_0_n_n.lhsIdx_val_of_single rfl j c
theorem mm_proj_r0 (j : S10000x128.Idx) (c : dot_S10000x128_S128x128_S10000x128_1_1_0_0_n_n.contr.Idx) : (dot_S10000x128_S128x128_S10000x128_1_1_0_0_n_n.rhsIdx j c 0).val = (j 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl
theorem mm_proj_r1 (j : S10000x128.Idx) (c : dot_S10000x128_S128x128_S10000x128_1_1_0_0_n_n.contr.Idx) : (dot_S10000x128_S128x128_S10000x128_1_1_0_0_n_n.rhsIdx j c 1).val = (c ⟨0, by decide⟩).val :=
  dot_S10000x128_S128x128_S10000x128_1_1_0_0_n_n.rhsIdx_val_of_single rfl j c

/-- Entry (p, q) of l·rᵀ accumulated into zero, 10000 rows: the sum over the shared second coordinate. -/
theorem mm_proj (l : FVec Ideal S10000x128 .f32) (r : FVec Ideal S128x128 .f32) (p : Fin 10000) (q : Fin 128) :
    matmul dot_S10000x128_S128x128_S10000x128_1_1_0_0_n_n none l r (constant (F := Ideal) S10000x128 .f32 0x00000000#32) (ix2 p q)
      = ∑ k : Fin 128, l (ix2 p k) * r (ix2 q k) := by
  refine (Ideal.matmul_constant_zero_apply dot_S10000x128_S128x128_S10000x128_1_1_0_0_n_n none l r (ix2 p q)).trans ?_
  rw [← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k :=
    funext fun a => Fin.ext (by
      match a with
      | ⟨0, _⟩ => exact mm_proj_l0 _ _
      | ⟨1, _⟩ => exact (mm_proj_l1 _ _).trans hk)
  have er : dot_S10000x128_S128x128_S10000x128_1_1_0_0_n_n.rhsIdx (ix2 p q) ((contrEquiv1 dot_S10000x128_S128x128_S10000x128_1_1_0_0_n_n 128 rfl rfl).symm k) = ix2 q k :=
    funext fun a => Fin.ext (by
      match a with
      | ⟨0, _⟩ => exact mm_proj_r0 _ _
      | ⟨1, _⟩ => exact (mm_proj_r1 _ _).trans hk)
  rw [el, er]

/-! The operand coordinates of `dot_S200x10000_S10000x128_S200x128_1_0_0_1_n_n` at a result index and a contraction position. -/

theorem mm_prop_l0 (j : S200x128.Idx) (c : dot_S200x10000_S10000x128_S200x128_1_0_0_1_n_n.contr.Idx) : (dot_S200x10000_S10000x128_S200x128_1_0_0_1_n_n.lhsIdx j c 0).val = (j 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
theorem mm_prop_l1 (j : S200x128.Idx) (c : dot_S200x10000_S10000x128_S200x128_1_0_0_1_n_n.contr.Idx) : (dot_S200x10000_S10000x128_S200x128_1_0_0_1_n_n.lhsIdx j c 1).val = (c ⟨0, by decide⟩).val :=
  dot_S200x10000_S10000x128_S200x128_1_0_0_1_n_n.lhsIdx_val_of_single rfl j c
theorem mm_prop_r0 (j : S200x128.Idx) (c : dot_S200x10000_S10000x128_S200x128_1_0_0_1_n_n.contr.Idx) : (dot_S200x10000_S10000x128_S200x128_1_0_0_1_n_n.rhsIdx j c 0).val = (c ⟨0, by decide⟩).val :=
  dot_S200x10000_S10000x128_S200x128_1_0_0_1_n_n.rhsIdx_val_of_single rfl j c
theorem mm_prop_r1 (j : S200x128.Idx) (c : dot_S200x10000_S10000x128_S200x128_1_0_0_1_n_n.contr.Idx) : (dot_S200x10000_S10000x128_S200x128_1_0_0_1_n_n.rhsIdx j c 1).val = (j 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- Entry (p, q) of l·r accumulated into zero: the sum over l's column and r's row. -/
theorem mm_prop (l : FVec Ideal S200x10000 .f32) (r : FVec Ideal S10000x128 .f32) (p : Fin 200) (q : Fin 128) :
    matmul dot_S200x10000_S10000x128_S200x128_1_0_0_1_n_n none l r (constant (F := Ideal) S200x128 .f32 0x00000000#32) (ix2 p q)
      = ∑ n : Fin 10000, l (ix2 p n) * r (ix2 n q) := by
  refine (Ideal.matmul_constant_zero_apply dot_S200x10000_S10000x128_S200x128_1_0_0_1_n_n none l r (ix2 p q)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k :=
    funext fun a => Fin.ext (by
      match a with
      | ⟨0, _⟩ => exact mm_prop_l0 _ _
      | ⟨1, _⟩ => exact (mm_prop_l1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q :=
    funext fun a => Fin.ext (by
      match a with
      | ⟨0, _⟩ => exact (mm_prop_r0 _ _).trans hk
      | ⟨1, _⟩ => exact mm_prop_r1 _ _)
  rw [el, er]

/-! The operand coordinates of `dot_S200x128_S128x128_S200x128_1_1_0_0_n_n` at a result index and a contraction position. -/

theorem mm_wt_l0 (j : S200x128.Idx) (c : dot_S200x128_S128x128_S200x128_1_1_0_0_n_n.contr.Idx) : (dot_S200x128_S128x128_S200x128_1_1_0_0_n_n.lhsIdx j c 0).val = (j 0).val := by
  unfold DotDims.lhsIdx
  rw [dif_neg (show ¬(0 : Fin S200x128.rank) ∈ dot_S200x128_S128x128_S200x128_1_1_0_0_n_n.lhsBatch by decide),
    dif_pos (show (0 : Fin S200x128.rank) ∈ dot_S200x128_S128x128_S200x128_1_1_0_0_n_n.lhsNonContracting by decide)]
  rfl
theorem mm_wt_l1 (j : S200x128.Idx) (c : dot_S200x128_S128x128_S200x128_1_1_0_0_n_n.contr.Idx) : (dot_S200x128_S128x128_S200x128_1_1_0_0_n_n.lhsIdx j c 1).val = (c ⟨0, by decide⟩).val :=
  dot_S200x128_S128x128_S200x128_1_1_0_0_n_n.lhsIdx_val_of_single rfl j c
theorem mm_wt_r0 (j : S200x128.Idx) (c : dot_S200x128_S128x128_S200x128_1_1_0_0_n_n.contr.Idx) : (dot_S200x128_S128x128_S200x128_1_1_0_0_n_n.rhsIdx j c 0).val = (j 1).val := by
  unfold DotDims.rhsIdx
  rw [dif_neg (show ¬(0 : Fin S128x128.rank) ∈ dot_S200x128_S128x128_S200x128_1_1_0_0_n_n.rhsBatch by decide),
    dif_pos (show (0 : Fin S128x128.rank) ∈ dot_S200x128_S128x128_S200x128_1_1_0_0_n_n.rhsNonContracting by decide)]
  rfl
theorem mm_wt_r1 (j : S200x128.Idx) (c : dot_S200x128_S128x128_S200x128_1_1_0_0_n_n.contr.Idx) : (dot_S200x128_S128x128_S200x128_1_1_0_0_n_n.rhsIdx j c 1).val = (c ⟨0, by decide⟩).val :=
  dot_S200x128_S128x128_S200x128_1_1_0_0_n_n.rhsIdx_val_of_single rfl j c

/-- Entry (p, q) of l·rᵀ accumulated into zero, 200 rows: the sum over the shared second coordinate. -/
theorem mm_wt (l : FVec Ideal S200x128 .f32) (r : FVec Ideal S128x128 .f32) (p : Fin 200) (q : Fin 128) :
    matmul dot_S200x128_S128x128_S200x128_1_1_0_0_n_n none l r (constant (F := Ideal) S200x128 .f32 0x00000000#32) (ix2 p q)
      = ∑ k : Fin 128, l (ix2 p k) * r (ix2 q k) := by
  refine (Ideal.matmul_constant_zero_apply dot_S200x128_S128x128_S200x128_1_1_0_0_n_n none l r (ix2 p q)).trans ?_
  rw [← Equiv.sum_comp (contrEquiv1 dot_S200x128_S128x128_S200x128_1_1_0_0_n_n 128 rfl rfl).symm]
  refine Finset.sum_congr rfl fun k _ => ?_
  have hk := contrEquiv1_symm_val dot_S200x128_S128x128_S200x128_1_1_0_0_n_n 128 rfl rfl k
  have el : dot_S200x128_S128x128_S200x128_1_1_0_0_n_n.lhsIdx (ix2 p q) ((contrEquiv1 dot_S200x128_S128x128_S200x128_1_1_0_0_n_n 128 rfl rfl).symm k) = ix2 p k :=
    funext fun a => Fin.ext (by
      match a with
      | ⟨0, _⟩ => exact mm_wt_l0 _ _
      | ⟨1, _⟩ => exact (mm_wt_l1 _ _).trans hk)
  have er : dot_S200x128_S128x128_S200x128_1_1_0_0_n_n.rhsIdx (ix2 p q) ((contrEquiv1 dot_S200x128_S128x128_S200x128_1_1_0_0_n_n 128 rfl rfl).symm k) = ix2 q k :=
    funext fun a => Fin.ext (by
      match a with
      | ⟨0, _⟩ => exact mm_wt_r0 _ _
      | ⟨1, _⟩ => exact (mm_wt_r1 _ _).trans hk)
  rw [el, er]

/-- A one-row matrix, cast to its own shape and repeated down `a` rows, read at (r, q): the row's entry q. -/
theorem bias_row {a : ℕ} (b : FVec Ideal S1x128 .f32) (h1 : S1x128.ShapeCasts S1x128)
    (h2 : S1x128.Broadcasts (⟨2, ![a, 128]⟩ : Shape)) (r : Fin a) (q : Fin 128) :
    broadcastTo (⟨2, ![a, 128]⟩ : Shape) (shapeCast S1x128 b h1) h2 (ix2 r q) = b (ix2 (0 : Fin 1) q) := by
  rw [shapeCast_self]
  exact broadcastTo_1b_ab_apply b h2 r q

/-- the input projection's payload: tanh (x·wᵀ + b) -/
theorem pay_proj (x : Vec Ideal S10000x128 .f32) (w : Vec Ideal S128x128 .f32) (b : Vec Ideal S1x128 .f32) (p : Fin 10000) (q : Fin 128) :
    k0_pay1 (F := Ideal) x w b (ix2 p q)
      = Ideal.tanh ((∑ k : Fin 128, x (ix2 p k) * w (ix2 q k)) + b (ix2 (0 : Fin 1) q)) := by
  unfold k0_pay1
  refine (congrFun (shapeCast_self _ _) (ix2 p q)).trans ?_
  refine congrArg Ideal.tanh ?_
  exact congrArg₂ (· + ·) (mm_proj x w p q) (bias_row b _ _ p q)

/-- one strip of 200 rows of a propagation layer, layer 1's kernel -/
theorem pay_layer0 (h : Vec Ideal S10000x128 .f32) (a1 a2 : Vec Ideal S200x10000 .f32) (wp : Vec Ideal S128x128 .f32) (bp : Vec Ideal S1x128 .f32)
    (wn : Vec Ideal S128x128 .f32) (bn : Vec Ideal S1x128 .f32) (r : Fin 200) (q : Fin 128) :
    k0_pay2 (F := Ideal) h a1 a2 wp bp wn bn (ix2 r q)
      = Ideal.tanh (((∑ k : Fin 128, (∑ n : Fin 10000, a1 (ix2 r n) * h (ix2 n k)) * wp (ix2 q k)) + bp (ix2 (0 : Fin 1) q))
            + ((∑ k : Fin 128, (∑ n : Fin 10000, a2 (ix2 r n) * h (ix2 n k)) * wn (ix2 q k)) + bn (ix2 (0 : Fin 1) q))) := by
  unfold k0_pay2
  refine congrArg Ideal.tanh ?_
  refine congrArg₂ (· + ·) (congrArg₂ (· + ·) ?_ (bias_row bp _ _ r q)) (congrArg₂ (· + ·) ?_ (bias_row bn _ _ r q))
  · refine (mm_wt _ wp r q).trans ?_
    exact Finset.sum_congr rfl fun k _ => congrArg (· * wp (ix2 q k)) (mm_prop a1 h r k)
  · refine (mm_wt _ wn r q).trans ?_
    exact Finset.sum_congr rfl fun k _ => congrArg (· * wn (ix2 q k)) (mm_prop a2 h r k)

/-- the same strip, layer 2's kernel: the features are first cast to their own shape, which changes nothing -/
theorem pay_layer1 (h : Vec Ideal S10000x128 .f32) (a1 a2 : Vec Ideal S200x10000 .f32) (wp : Vec Ideal S128x128 .f32) (bp : Vec Ideal S1x128 .f32)
    (wn : Vec Ideal S128x128 .f32) (bn : Vec Ideal S1x128 .f32) (r : Fin 200) (q : Fin 128) :
    k1_pay1 (F := Ideal) h a1 a2 wp bp wn bn (ix2 r q)
      = Ideal.tanh (((∑ k : Fin 128, (∑ n : Fin 10000, a1 (ix2 r n) * h (ix2 n k)) * wp (ix2 q k)) + bp (ix2 (0 : Fin 1) q))
            + ((∑ k : Fin 128, (∑ n : Fin 10000, a2 (ix2 r n) * h (ix2 n k)) * wn (ix2 q k)) + bn (ix2 (0 : Fin 1) q))) := by
  unfold k1_pay1
  refine congrArg Ideal.tanh ?_
  refine congrArg₂ (· + ·) (congrArg₂ (· + ·) ?_ (bias_row bp _ _ r q)) (congrArg₂ (· + ·) ?_ (bias_row bn _ _ r q))
  · refine (mm_wt _ wp r q).trans ?_
    refine Finset.sum_congr rfl fun k _ => congrArg (· * wp (ix2 q k)) ?_
    refine (mm_prop a1 _ r k).trans ?_
    exact Finset.sum_congr rfl fun n _ => congrArg (a1 (ix2 r n) * ·) (congrFun (shapeCast_self h _) (ix2 n k))
  · refine (mm_wt _ wn r q).trans ?_
    refine Finset.sum_congr rfl fun k _ => congrArg (· * wn (ix2 q k)) ?_
    refine (mm_prop a2 _ r k).trans ?_
    exact Finset.sum_congr rfl fun n _ => congrArg (a2 (ix2 r n) * ·) (congrFun (shapeCast_self h _) (ix2 n k))

end Cert.PayValue

end
-- ==== Proof.KernelIdeal.Blocks.lean ====
/-
  From blocks to arrays, at the extended reals. Each of the fifty grid points of a propagation layer writes back one
  strip of 200 rows of the result; strip t is rows 200 t … 200 t + 199 of one whole-array function of what the region
  found in its arrays: the layer of the specification. The strips tile the 10000 rows, so after the launch the result
  array is that function. For the first layer the matrix h the strips multiply into is the projection the first point
  left in the scratch; for the second it is the first layer's result array. Composed along the program's run this is
  the specification's whole forward pass of the launch contents of the thirteen arguments.
-/
import proofs.«163664_g26603027432195_retrytranche2_1891_18_alg».proof.Proof.KernelIdeal.Run
import proofs.«163664_g26603027432195_retrytranche2_1891_18_alg».proof.Proof.PayValue
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Blocks

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- A [1, 128] bias row read as the vector of its 128 entries. -/
def row (b : Vec Ideal S1x128 .f32) : Cert.Spec.Vc 128 := fun j => b (ix2 (0 : Fin 1) (j 0))

/-! ## One strip of a layer, as a pure statement: if the two strip blocks are rows T·200 … of the adjacency matrices,
    the strip's payload at (r, q) is the layer of the specification at row T·200 + r -/

theorem strip_layer1 (h : Vec Ideal S10000x128 .f32) (ap an : Cert.Spec.Mat 10000 10000) (a1 a2 : Vec Ideal S200x10000 .f32)
    (wp wn : Vec Ideal S128x128 .f32) (bp bn : Vec Ideal S1x128 .f32) (T : ℕ) (hT : T < 50)
    (e1 : ∀ (r : Fin 200) (n : Fin 10000), a1 (ix2 r n) = ap (ix2 (⟨T * 200 + r.val, by omega⟩ : Fin 10000) n))
    (e2 : ∀ (r : Fin 200) (n : Fin 10000), a2 (ix2 r n) = an (ix2 (⟨T * 200 + r.val, by omega⟩ : Fin 10000) n))
    (r : Fin 200) (q : Fin 128) :
    k1_pay1 (F := Ideal) h a1 a2 wp bp wn bn (ix2 r q)
      = Cert.Spec.layerAt h ap an wp (row bp) wn (row bn) (⟨T * 200 + r.val, by omega⟩ : Fin 10000) q := by
  rw [Cert.PayValue.pay_layer1]
  unfold Cert.Spec.layerAt Cert.Spec.propAt row
  simp only [e1, e2]

theorem strip_layer0 (h : Vec Ideal S10000x128 .f32) (ap an : Cert.Spec.Mat 10000 10000) (a1 a2 : Vec Ideal S200x10000 .f32)
    (wp wn : Vec Ideal S128x128 .f32) (bp bn : Vec Ideal S1x128 .f32) (T : ℕ) (hT : T < 50)
    (e1 : ∀ (r : Fin 200) (n : Fin 10000), a1 (ix2 r n) = ap (ix2 (⟨T * 200 + r.val, by omega⟩ : Fin 10000) n))
    (e2 : ∀ (r : Fin 200) (n : Fin 10000), a2 (ix2 r n) = an (ix2 (⟨T * 200 + r.val, by omega⟩ : Fin 10000) n))
    (r : Fin 200) (q : Fin 128) :
    k0_pay2 (F := Ideal) h a1 a2 wp bp wn bn (ix2 r q)
      = Cert.Spec.layerAt h ap an wp (row bp) wn (row bn) (⟨T * 200 + r.val, by omega⟩ : Fin 10000) q := by
  rw [Cert.PayValue.pay_layer0]
  unfold Cert.Spec.layerAt Cert.Spec.propAt row
  simp only [e1, e2]

variable (V : (c : Dev nD) → (b : Ref sig .tc) → Buf (Elt Ideal) ((c : Thread nD τ).loc b))

/-! # The second layer (pipeline 1) -/

/-- The printed index maps at a point: the strip windows and the output sit at block row `t`, every other window
    at block (0, 0). -/
structure Idx1 (t : Fin cfg1.N) : Prop where
  w0 : win1_0.index t (0 : Fin 2) = 0 ∧ win1_0.index t (1 : Fin 2) = 0
  w1 : win1_1.index t (0 : Fin 2) = t.val ∧ win1_1.index t (1 : Fin 2) = 0
  w2 : win1_2.index t (0 : Fin 2) = t.val ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = 0 ∧ win1_6.index t (1 : Fin 2) = 0
  w7 : win1_7.index t (0 : Fin 2) = t.val ∧ win1_7.index t (1 : Fin 2) = 0

/-- Decided over the grid. -/
theorem idx1 : ∀ t : Fin cfg1.N, Idx1 t := by
  have h : ∀ t : Fin cfg1.N, (win1_0.index t (0 : Fin 2) = 0 ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
    (by decide +kernel : ∀ t : Fin grid1.N, _)
  intro t
  obtain ⟨h0, h1, h2, h3, h4, h5, h6, h7⟩ := h t
  exact ⟨h0, h1, h2, h3, h4, h5, h6, h7⟩

/-! A window whose block is its whole array reads the array at every point; a strip window reads rows 200 t …. -/
theorem blk1_0 (c : Dev nD) (t : Fin cfg1.N) : (iblk1 V c 0 t : Vec Ideal S10000x128 .f32) = V c main_v3 := by
  have e := (idx1 t).w0.1
  have e' := (idx1 t).w0.2
  funext y
  unfold iblk1
  rw [View.read_apply]
  show V c main_v3 _ = V c main_v3 y
  refine congrArg _ ?_
  funext a; apply Fin.ext
  match a with
  | ⟨0, _⟩ => show win1_0.index t (0 : Fin 2) * 10000 + 1 * (y 0).val = (y 0).val; omega
  | ⟨1, _⟩ => show win1_0.index t (1 : Fin 2) * 128 + 1 * (y 1).val = (y 1).val; omega

theorem blk1_3 (c : Dev nD) (t : Fin cfg1.N) : (iblk1 V c 3 t : Vec Ideal S128x128 .f32) = V c main_arg9 := by
  have e := (idx1 t).w3.1
  have e' := (idx1 t).w3.2
  funext y
  unfold iblk1
  rw [View.read_apply]
  show V c main_arg9 _ = V c main_arg9 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk1_4 (c : Dev nD) (t : Fin cfg1.N) : (iblk1 V c 4 t : Vec Ideal S128x128 .f32) = V c main_arg11 := by
  have e := (idx1 t).w4.1
  have e' := (idx1 t).w4.2
  funext y
  unfold iblk1
  rw [View.read_apply]
  show V c main_arg11 _ = V c main_arg11 y
  refine congrArg _ ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem blk1_5 (c : Dev nD) (t : Fin cfg1.N) : (iblk1 V c 5 t : Vec Ideal S1x128 .f32) = V c main_v4 := by
  have e := (idx1 t).w5.1
  have e' := (idx1 t).w5.2
  funext y
  unfold iblk1
  rw [View.read_apply]
  show V c main_v4 _ = V c main_v4 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem blk1_6 (c : Dev nD) (t : Fin cfg1.N) : (iblk1 V c 6 t : Vec Ideal S1x128 .f32) = V c main_v5 := by
  have e := (idx1 t).w6.1
  have e' := (idx1 t).w6.2
  funext y
  unfold iblk1
  rw [View.read_apply]
  show V c main_v5 _ = V c main_v5 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem blk1_1 (c : Dev nD) (t : Fin cfg1.N) (r : Fin 200) (n : Fin 10000) :
    (iblk1 V c 1 t : Vec Ideal S200x10000 .f32) (ix2 r n)
      = (V c main_arg1 : Cert.Spec.Mat 10000 10000) (ix2 (⟨t.val * 200 + r.val, by have := t.isLt; have hN : cfg1.N = 50 := N_1; omega⟩ : Fin 10000) n) := by
  have e := (idx1 t).w1.1
  have e' := (idx1 t).w1.2
  unfold iblk1
  rw [View.read_apply]
  show V c main_arg1 _ = V c main_arg1 _
  refine congrArg _ ?_
  funext a; apply Fin.ext
  match a with
  | ⟨0, _⟩ => show win1_1.index t (0 : Fin 2) * 200 + 1 * r.val = t.val * 200 + r.val; omega
  | ⟨1, _⟩ => show win1_1.index t (1 : Fin 2) * 10000 + 1 * n.val = n.val; omega

theorem blk1_2 (c : Dev nD) (t : Fin cfg1.N) (r : Fin 200) (n : Fin 10000) :
    (iblk1 V c 2 t : Vec Ideal S200x10000 .f32) (ix2 r n)
      = (V c main_arg2 : Cert.Spec.Mat 10000 10000) (ix2 (⟨t.val * 200 + r.val, by have := t.isLt; have hN : cfg1.N = 50 := N_1; omega⟩ : Fin 10000) n) := by
  have e := (idx1 t).w2.1
  have e' := (idx1 t).w2.2
  unfold iblk1
  rw [View.read_apply]
  show V c main_arg2 _ = V c main_arg2 _
  refine congrArg _ ?_
  funext a; apply Fin.ext
  match a with
  | ⟨0, _⟩ => show win1_2.index t (0 : Fin 2) * 200 + 1 * r.val = t.val * 200 + r.val; omega
  | ⟨1, _⟩ => show win1_2.index t (1 : Fin 2) * 10000 + 1 * n.val = n.val; omega

/-- What the layer's result array holds after the launch: the specification's layer of the region-entry contents. -/
def G1 (c : Dev nD) : Cert.Spec.Mat 10000 128 :=
  Cert.Spec.layer (V c main_v3) (V c main_arg1) (V c main_arg2) (V c main_arg9) (row (V c main_v4)) (V c main_arg11) (row (V c main_v5))

/-- WHAT POINT `t` WRITES BACK is block `t` of `G1`. -/
theorem flushed1_eq (c : Dev nD) (t : Fin cfg1.N) :
    (dat1 V c).flushed 7 t = ((cfg1.win 7).blk t).view.read (Elt Ideal) (G1 V c) := by
  have hN : cfg1.N = 50 := N_1
  have ht := t.isLt
  have e := (idx1 t).w7.1
  have e' := (idx1 t).w7.2
  show (cfg1.win 7).cut (grid1.coords t) ((dat1 V c).after 7 t) = _
  rw [after1_7]
  unfold out1_7
  rw [View.canon_unit_zero hz]
  simp only [View.ld_unit_zero (S := S10000x128) hz, View.ld_unit_zero (S := S200x10000) hz, View.ld_unit_zero (S := S128x128) hz, View.ld_unit_zero (S := S1x128) hz]
  rw [blk1_0 V c t, blk1_3 V c t, blk1_4 V c t, blk1_5 V c t, blk1_6 V c t]
  funext j
  obtain ⟨r, q, rfl⟩ : ∃ (r : Fin 200) (q : Fin 128), j = ix2 r q := ⟨j 0, j 1, eq_ix2 j⟩
  refine (strip_layer1 (V c main_v3) (V c main_arg1) (V c main_arg2) _ _ _ _ _ _ t.val (by omega)
    (fun r n => blk1_1 V c t r n) (fun r n => blk1_2 V c t r n) r q).trans ?_
  rw [View.read_apply]
  have hi : ((cfg1.win 7).blk t).view.emb (ix2 r q) = ix2 (⟨t.val * 200 + r.val, by omega⟩ : Fin 10000) q := by
    funext a; apply Fin.ext
    match a with
    | ⟨0, _⟩ => show win1_7.index t (0 : Fin 2) * 200 + 1 * r.val = t.val * 200 + r.val; omega
    | ⟨1, _⟩ => show win1_7.index t (1 : Fin 2) * 128 + 1 * q.val = q.val; omega
  rw [hi]
  rfl

/-- An index of the result array is in point `t`'s block iff each coordinate is in the block's range on its axis. -/
theorem mem_blk1 (t : Fin cfg1.N) (i : S10000x128.Idx) :
    i ∈ ((cfg1.win 7).blk t).view.set ↔ ∀ a : Fin 2, win1_7.index t a * S200x128.size a ≤ (i a).val ∧ (i a).val < win1_7.index t a * S200x128.size a + S200x128.size a := by
  show i ∈ ((View.whole main_v6).slice (win1_7.rect t)).set ↔ _
  rw [View.set_slice_whole, Rect.mem_set_unit]
  exact Iff.rfl

/-- The fifty strips tile the result array: row `p` is in the block of point `p / 200`. -/
theorem cover1 (i : S10000x128.Idx) : ∃ t : Fin cfg1.N, (cfg1.win 7).flush t = true ∧ i ∈ ((cfg1.win 7).blk t).view.set := by
  have hN : cfg1.N = 50 := N_1
  have hi0 : (i 0).val < 10000 := (i 0).isLt
  have hi1 : (i 1).val < 128 := (i 1).isLt
  refine ⟨⟨(i 0).val / 200, by omega⟩, flush1_7 _, ?_⟩
  rw [mem_blk1]
  have e := (idx1 (⟨(i 0).val / 200, by omega⟩ : Fin cfg1.N)).w7.1
  have e' := (idx1 (⟨(i 0).val / 200, by omega⟩ : Fin cfg1.N)).w7.2
  intro a
  match a with
  | ⟨0, _⟩ => show win1_7.index _ (0 : Fin 2) * 200 ≤ (i 0).val ∧ (i 0).val < win1_7.index _ (0 : Fin 2) * 200 + 200; rw [e]; dsimp only; omega
  | ⟨1, _⟩ => show win1_7.index _ (1 : Fin 2) * 128 ≤ (i 1).val ∧ (i 1).val < win1_7.index _ (1 : Fin 2) * 128 + 128; rw [e']; omega

/-- THE ARRAY after the launch. -/
theorem final1 (c : Dev nD) : (dat1 V c).arrAt 7 cfg1.N = G1 V c :=
  (dat1 V c).arrAt_eq_of_cover 7 (G1 V c) (fun t _ => flushed1_eq V c t) (cover1)

/-! # The first layer (pipeline 0) -/

/-- The printed index maps at a point: the strip windows and the output sit at block row `t`, every other window
    at block (0, 0). -/
structure Idx0 (t : Fin cfg0.N) : Prop where
  w0 : win0_0.index t (0 : Fin 2) = 0 ∧ win0_0.index t (1 : Fin 2) = 0
  w1 : win0_1.index t (0 : Fin 2) = 0 ∧ win0_1.index t (1 : Fin 2) = 0
  w2 : win0_2.index t (0 : Fin 2) = 0 ∧ win0_2.index t (1 : Fin 2) = 0
  w3 : win0_3.index t (0 : Fin 2) = t.val ∧ win0_3.index t (1 : Fin 2) = 0
  w4 : win0_4.index t (0 : Fin 2) = t.val ∧ win0_4.index t (1 : Fin 2) = 0
  w5 : win0_5.index t (0 : Fin 2) = 0 ∧ win0_5.index t (1 : Fin 2) = 0
  w6 : win0_6.index t (0 : Fin 2) = 0 ∧ win0_6.index t (1 : Fin 2) = 0
  w7 : win0_7.index t (0 : Fin 2) = 0 ∧ win0_7.index t (1 : Fin 2) = 0
  w8 : win0_8.index t (0 : Fin 2) = 0 ∧ win0_8.index t (1 : Fin 2) = 0
  w9 : win0_9.index t (0 : Fin 2) = t.val ∧ win0_9.index t (1 : Fin 2) = 0

/-- Decided over the grid. -/
theorem idx0 : ∀ t : Fin cfg0.N, Idx0 t := by
  have h : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
    (by decide +kernel : ∀ t : Fin grid0.N, _)
  intro t
  obtain ⟨h0, h1, h2, h3, h4, h5, h6, h7, h8, h9⟩ := h t
  exact ⟨h0, h1, h2, h3, h4, h5, h6, h7, h8, h9⟩

/-! A window whose block is its whole array reads the array at every point; a strip window reads rows 200 t …. -/
theorem blk0_0 (c : Dev nD) (t : Fin cfg0.N) : (iblk0 V c 0 t : Vec Ideal S10000x128 .f32) = V c main_arg0 := by
  have e := (idx0 t).w0.1
  have e' := (idx0 t).w0.2
  funext y
  unfold iblk0
  rw [View.read_apply]
  show V c main_arg0 _ = V c main_arg0 y
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem blk0_1 (c : Dev nD) (t : Fin cfg0.N) : (iblk0 V c 1 t : Vec Ideal S128x128 .f32) = V c main_arg3 := by
  have e := (idx0 t).w1.1
  have e' := (idx0 t).w1.2
  funext y
  unfold iblk0
  rw [View.read_apply]
  show V c main_arg3 _ = V c main_arg3 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem blk0_2 (c : Dev nD) (t : Fin cfg0.N) : (iblk0 V c 2 t : Vec Ideal S1x128 .f32) = V c main_v0 := by
  have e := (idx0 t).w2.1
  have e' := (idx0 t).w2.2
  funext y
  unfold iblk0
  rw [View.read_apply]
  show V c main_v0 _ = V c main_v0 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk0_5 (c : Dev nD) (t : Fin cfg0.N) : (iblk0 V c 5 t : Vec Ideal S128x128 .f32) = V c main_arg5 := by
  have e := (idx0 t).w5.1
  have e' := (idx0 t).w5.2
  funext y
  unfold iblk0
  rw [View.read_apply]
  show V c main_arg5 _ = V c main_arg5 y
  refine congrArg _ ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk0_6 (c : Dev nD) (t : Fin cfg0.N) : (iblk0 V c 6 t : Vec Ideal S128x128 .f32) = V c main_arg7 := by
  have e := (idx0 t).w6.1
  have e' := (idx0 t).w6.2
  funext y
  unfold iblk0
  rw [View.read_apply]
  show V c main_arg7 _ = V c main_arg7 y
  refine congrArg _ ?_
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem blk0_7 (c : Dev nD) (t : Fin cfg0.N) : (iblk0 V c 7 t : Vec Ideal S1x128 .f32) = V c main_v1 := by
  have e := (idx0 t).w7.1
  have e' := (idx0 t).w7.2
  funext y
  unfold iblk0
  rw [View.read_apply]
  show V c main_v1 _ = V c main_v1 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem blk0_8 (c : Dev nD) (t : Fin cfg0.N) : (iblk0 V c 8 t : Vec Ideal S1x128 .f32) = V c main_v2 := by
  have e := (idx0 t).w8.1
  have e' := (idx0 t).w8.2
  funext y
  unfold iblk0
  rw [View.read_apply]
  show V c main_v2 _ = V c main_v2 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk0_3 (c : Dev nD) (t : Fin cfg0.N) (r : Fin 200) (n : Fin 10000) :
    (iblk0 V c 3 t : Vec Ideal S200x10000 .f32) (ix2 r n)
      = (V c main_arg1 : Cert.Spec.Mat 10000 10000) (ix2 (⟨t.val * 200 + r.val, by have := t.isLt; have hN : cfg0.N = 50 := N_0; omega⟩ : Fin 10000) n) := by
  have e := (idx0 t).w3.1
  have e' := (idx0 t).w3.2
  unfold iblk0
  rw [View.read_apply]
  show V c main_arg1 _ = V c main_arg1 _
  refine congrArg _ ?_
  funext a; apply Fin.ext
  match a with
  | ⟨0, _⟩ => show win0_3.index t (0 : Fin 2) * 200 + 1 * r.val = t.val * 200 + r.val; omega
  | ⟨1, _⟩ => show win0_3.index t (1 : Fin 2) * 10000 + 1 * n.val = n.val; omega

theorem blk0_4 (c : Dev nD) (t : Fin cfg0.N) (r : Fin 200) (n : Fin 10000) :
    (iblk0 V c 4 t : Vec Ideal S200x10000 .f32) (ix2 r n)
      = (V c main_arg2 : Cert.Spec.Mat 10000 10000) (ix2 (⟨t.val * 200 + r.val, by have := t.isLt; have hN : cfg0.N = 50 := N_0; omega⟩ : Fin 10000) n) := by
  have e := (idx0 t).w4.1
  have e' := (idx0 t).w4.2
  unfold iblk0
  rw [View.read_apply]
  show V c main_arg2 _ = V c main_arg2 _
  refine congrArg _ ?_
  funext a; apply Fin.ext
  match a with
  | ⟨0, _⟩ => show win0_4.index t (0 : Fin 2) * 200 + 1 * r.val = t.val * 200 + r.val; omega
  | ⟨1, _⟩ => show win0_4.index t (1 : Fin 2) * 10000 + 1 * n.val = n.val; omega

/-- What the scratch holds from the first point on, as a matrix: the projection of x, W_in and the bias row. -/
def H0 (c : Dev nD) : Cert.Spec.Mat 10000 128 := Cert.Spec.proj (V c main_arg0) (V c main_arg3) (row (V c main_v0))

theorem S0_eq (c : Dev nD) : (S0 V c : Vec Ideal S10000x128 .f32) = H0 V c := by
  unfold S0 scr0
  rw [View.canon_unit_zero hz]
  simp only [View.ld_unit_zero (S := S10000x128) hz, View.ld_unit_zero (S := S128x128) hz, View.ld_unit_zero (S := S1x128) hz]
  rw [blk0_0 V c t0, blk0_1 V c t0, blk0_2 V c t0]
  funext j
  obtain ⟨p, q, rfl⟩ : ∃ (p : Fin 10000) (q : Fin 128), j = ix2 p q := ⟨j 0, j 1, eq_ix2 j⟩
  rw [Cert.PayValue.pay_proj]
  rfl

/-- What the layer's result array holds after the launch: the specification's layer of the region-entry contents. -/
def G0 (c : Dev nD) : Cert.Spec.Mat 10000 128 :=
  Cert.Spec.layer (H0 V c) (V c main_arg1) (V c main_arg2) (V c main_arg5) (row (V c main_v1)) (V c main_arg7) (row (V c main_v2))

/-- WHAT POINT `t` WRITES BACK is block `t` of `G0`. -/
theorem flushed0_eq (c : Dev nD) (t : Fin cfg0.N) :
    (dat0 V c).flushed 9 t = ((cfg0.win 9).blk t).view.read (Elt Ideal) (G0 V c) := by
  have hN : cfg0.N = 50 := N_0
  have ht := t.isLt
  have e := (idx0 t).w9.1
  have e' := (idx0 t).w9.2
  show (cfg0.win 9).cut (grid0.coords t) ((dat0 V c).after 9 t) = _
  rw [after0_9]
  unfold out0_9
  rw [View.canon_unit_zero hz]
  simp only [View.ld_unit_zero (S := S10000x128) hz, View.ld_unit_zero (S := S200x10000) hz, View.ld_unit_zero (S := S128x128) hz, View.ld_unit_zero (S := S1x128) hz]
  rw [blk0_5 V c t, blk0_6 V c t, blk0_7 V c t, blk0_8 V c t, S0_eq V c]
  funext j
  obtain ⟨r, q, rfl⟩ : ∃ (r : Fin 200) (q : Fin 128), j = ix2 r q := ⟨j 0, j 1, eq_ix2 j⟩
  refine (strip_layer0 (H0 V c) (V c main_arg1) (V c main_arg2) _ _ _ _ _ _ t.val (by omega)
    (fun r n => blk0_3 V c t r n) (fun r n => blk0_4 V c t r n) r q).trans ?_
  rw [View.read_apply]
  have hi : ((cfg0.win 9).blk t).view.emb (ix2 r q) = ix2 (⟨t.val * 200 + r.val, by omega⟩ : Fin 10000) q := by
    funext a; apply Fin.ext
    match a with
    | ⟨0, _⟩ => show win0_9.index t (0 : Fin 2) * 200 + 1 * r.val = t.val * 200 + r.val; omega
    | ⟨1, _⟩ => show win0_9.index t (1 : Fin 2) * 128 + 1 * q.val = q.val; omega
  rw [hi]
  rfl

/-- An index of the result array is in point `t`'s block iff each coordinate is in the block's range on its axis. -/
theorem mem_blk0 (t : Fin cfg0.N) (i : S10000x128.Idx) :
    i ∈ ((cfg0.win 9).blk t).view.set ↔ ∀ a : Fin 2, win0_9.index t a * S200x128.size a ≤ (i a).val ∧ (i a).val < win0_9.index t a * S200x128.size a + S200x128.size a := by
  show i ∈ ((View.whole main_v3).slice (win0_9.rect t)).set ↔ _
  rw [View.set_slice_whole, Rect.mem_set_unit]
  exact Iff.rfl

/-- The fifty strips tile the result array: row `p` is in the block of point `p / 200`. -/
theorem cover0 (i : S10000x128.Idx) : ∃ t : Fin cfg0.N, (cfg0.win 9).flush t = true ∧ i ∈ ((cfg0.win 9).blk t).view.set := by
  have hN : cfg0.N = 50 := N_0
  have hi0 : (i 0).val < 10000 := (i 0).isLt
  have hi1 : (i 1).val < 128 := (i 1).isLt
  refine ⟨⟨(i 0).val / 200, by omega⟩, flush0_9 _, ?_⟩
  rw [mem_blk0]
  have e := (idx0 (⟨(i 0).val / 200, by omega⟩ : Fin cfg0.N)).w9.1
  have e' := (idx0 (⟨(i 0).val / 200, by omega⟩ : Fin cfg0.N)).w9.2
  intro a
  match a with
  | ⟨0, _⟩ => show win0_9.index _ (0 : Fin 2) * 200 ≤ (i 0).val ∧ (i 0).val < win0_9.index _ (0 : Fin 2) * 200 + 200; rw [e]; dsimp only; omega
  | ⟨1, _⟩ => show win0_9.index _ (1 : Fin 2) * 128 ≤ (i 1).val ∧ (i 1).val < win0_9.index _ (1 : Fin 2) * 128 + 128; rw [e']; omega

/-- THE ARRAY after the launch. -/
theorem final0 (c : Dev nD) : (dat0 V c).arrAt 9 cfg0.N = G0 V c :=
  (dat0 V c).arrAt_eq_of_cover 9 (G0 V c) (fun t _ => flushed0_eq V c t) (cover0)

/-! # The composition along the run -/

section Compose

variable (m : (ℓ : Loc nD τ sig) → Buf (Elt Ideal) ℓ) (ρ : Dev nD → PrngReg)

/-- A bias vector reshaped to a [1, 128] row and read back as a vector is itself. -/
theorem row_shapeCast (x : Cert.Spec.Vc 128) (h : S128.ShapeCasts S1x128) : row (shapeCast S1x128 x h) = x := by
  funext j
  obtain ⟨q, rfl⟩ : ∃ q : Fin 128, j = ix1 q := ⟨j 0, eq_ix1 j⟩
  exact shapeCast_a_1a_apply x h 0 q

/-! ## At the first layer's entry: the arguments as launched, the three bias rows the reshapes wrote -/

theorem E1_arg (c : Dev nD) (a : Ref sig .tc) (h : a ∉ hostOps0_W) : E1v m ρ c a = m ((c : Thread nD τ).loc a) :=
  (StableHlo.after_of_writes_sub hostOps0 _ hostOps0_writes h).trans rfl

theorem E1_v0 (c : Dev nD) : (E1v m ρ c main_v0 : Vec Ideal S1x128 .f32) = shapeCast S1x128 (m ((c : Thread nD τ).loc main_arg4)) shapeCasts_S128_S1x128 := by
  dsimp only [E1v, E1, hostOps0]; after_results; rfl
theorem E1_v1 (c : Dev nD) : (E1v m ρ c main_v1 : Vec Ideal S1x128 .f32) = shapeCast S1x128 (m ((c : Thread nD τ).loc main_arg6)) shapeCasts_S128_S1x128 := by
  dsimp only [E1v, E1, hostOps0]; after_results; rfl
theorem E1_v2 (c : Dev nD) : (E1v m ρ c main_v2 : Vec Ideal S1x128 .f32) = shapeCast S1x128 (m ((c : Thread nD τ).loc main_arg8)) shapeCasts_S128_S1x128 := by
  dsimp only [E1v, E1, hostOps0]; after_results; rfl

/-- The first layer's result: the specification's first layer of the projection, of the launch contents. -/
theorem first_layer (c : Dev nD) : (dat0 (E1v m ρ) c).arrAt 9 cfg0.N
    = Cert.Spec.layer (Cert.Spec.proj (m ((c : Thread nD τ).loc main_arg0)) (m ((c : Thread nD τ).loc main_arg3)) (m ((c : Thread nD τ).loc main_arg4)))
        (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  rw [final0]
  unfold G0 H0
  rw [E1_arg m ρ c main_arg0 (by decide), E1_arg m ρ c main_arg3 (by decide), E1_arg m ρ c main_arg1 (by decide),
    E1_arg m ρ c main_arg2 (by decide), E1_arg m ρ c main_arg5 (by decide), E1_arg m ρ c main_arg7 (by decide),
    E1_v0, E1_v1, E1_v2, row_shapeCast, row_shapeCast, row_shapeCast]

/-! ## At the second layer's entry -/

/-- A buffer no reshape of the second stretch writes and that is no array of the first layer keeps its launch contents. -/
theorem E3_bypass (c : Dev nD) (a : Ref sig .tc) (h1 : a ∉ hostOps1_W) (h2 : ∀ w, Pipeline.arrRef spec0 w ≠ a) (h0 : a ∉ hostOps0_W) :
    E3v m ρ c a = m ((c : Thread nD τ).loc a) :=
  (StableHlo.after_of_writes_sub hostOps1 _ hostOps1_writes h1).trans
    ((E2_of_ne m ρ c a h2).trans ((StableHlo.after_of_writes_sub hostOps0 _ hostOps0_writes h0).trans rfl))

/-- An adjacency matrix, an input array of the first layer, keeps its launch contents too. -/
theorem E3_arg1 (c : Dev nD) : E3v m ρ c main_arg1 = m ((c : Thread nD τ).loc main_arg1) :=
  (StableHlo.after_of_writes_sub hostOps1 _ hostOps1_writes (r := main_arg1) (by decide)).trans
    ((E2_arr m ρ c 3).trans (((dat0 (E1v m ρ) c).arrAt_in 3 rfl _).trans ((A_eq0 (E1v m ρ) c 3).trans (E1_arg m ρ c main_arg1 (by decide)))))
theorem E3_arg2 (c : Dev nD) : E3v m ρ c main_arg2 = m ((c : Thread nD τ).loc main_arg2) :=
  (StableHlo.after_of_writes_sub hostOps1 _ hostOps1_writes (r := main_arg2) (by decide)).trans
    ((E2_arr m ρ c 4).trans (((dat0 (E1v m ρ) c).arrAt_in 4 rfl _).trans ((A_eq0 (E1v m ρ) c 4).trans (E1_arg m ρ c main_arg2 (by decide)))))

/-- The matrix the second layer multiplies into is what the first layer's write-backs left. -/
theorem E3_v3 (c : Dev nD) : E3v m ρ c main_v3 = (dat0 (E1v m ρ) c).arrAt 9 cfg0.N :=
  (StableHlo.after_of_writes_sub hostOps1 _ hostOps1_writes (r := main_v3) (by decide)).trans (E2_arr m ρ c 9)

theorem E3_v4 (c : Dev nD) : (E3v m ρ c main_v4 : Vec Ideal S1x128 .f32) = shapeCast S1x128 (E2v m ρ c main_arg10) shapeCasts_S128_S1x128 := by
  dsimp only [E3v, E3, hostOps1]; after_results; rfl
theorem E3_v5 (c : Dev nD) : (E3v m ρ c main_v5 : Vec Ideal S1x128 .f32) = shapeCast S1x128 (E2v m ρ c main_arg12) shapeCasts_S128_S1x128 := by
  dsimp only [E3v, E3, hostOps1]; after_results; rfl
theorem E2_arg (c : Dev nD) (a : Ref sig .tc) (h2 : ∀ w, Pipeline.arrRef spec0 w ≠ a) (h0 : a ∉ hostOps0_W) :
    E2v m ρ c a = m ((c : Thread nD τ).loc a) :=
  (E2_of_ne m ρ c a h2).trans ((StableHlo.after_of_writes_sub hostOps0 _ hostOps0_writes h0).trans rfl)

/-- THE RESULT ARRAY after the run is the specification's forward pass of the launch contents of the arguments. -/
theorem result_eq (c : Dev nD) : (dat1 (E3v m ρ) c).arrAt 7 cfg1.N
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final1]
  unfold G1 Cert.Spec.G
  rw [E3_v3, first_layer, E3_arg1, E3_arg2, E3_bypass m ρ c main_arg9 (by decide) (by decide) (by decide),
    E3_bypass m ρ c main_arg11 (by decide) (by decide) (by decide), E3_v4, E3_v5,
    E2_arg m ρ c main_arg10 (by decide) (by decide), E2_arg m ρ c main_arg12 (by decide) (by decide), row_shapeCast, row_shapeCast]

end Compose

end Cert.KernelIdeal.Blocks

end
-- ==== Proof.RefValue.lean ====
/-
  The reference program computes the specification.

  Read one entry at a time, the reference's last stage is tanh of a sum of two affine maps of the two
  neighbourhood sums of the previous stage, and its first stage is tanh of an affine map of the input:
  exactly the specification's `proj` and `layer`, with every sum over one contracted coordinate and
  grouped the same way. The work below is only to identify the index maps of the transposes, the
  broadcasts and the matrix products with the coordinates `ix2 p q`, `ix1 q`.
-/
import proofs.«163664_g26603027432195_retrytranche2_1891_18_alg».proof.Proof.Spec
import proofs.«163664_g26603027432195_retrytranche2_1891_18_alg».proof.Proof.Gen.ReferenceIdeal.Read

noncomputable section

open scoped BigOperators

namespace Cert.RefValue

open Idealize.ShloMosaic Idealize.ShloMosaic.ValueIdx Cert.ReferenceIdeal Cert.ReferenceIdeal.Read Cert.Spec

/-- Two rank-2 indices (or two rank-1 indices) given by cases on the axis agree when their coordinates do. -/
local macro "idx_cases" : tactic =>
  `(tactic| (funext a; first
      | (match a with | ⟨0, _⟩ => rfl | ⟨1, _⟩ => rfl)
      | (match a with | ⟨0, _⟩ => rfl)))

/-- Entry (p, q) of a · wᵀ + b, for any left factor `a`: the product contracts `a`'s second coordinate against the
    transposed weights' first, that is against `w`'s second; the bias is broadcast along the rows. -/
theorem affine_at (a : Mat 10000 128) (w : Mat 128 128) (b : Vc 128) (p : Fin 10000) (q : Fin 128) :
    val_main_v4 (F := Ideal) a w b (ix2 p q) = (∑ k : Fin 128, a (ix2 p k) * w (ix2 q k)) + b (ix1 q) := by
  rw [val_main_v4_apply, val_main_v1_apply, val_main_v3_apply, val_main_v2_apply]
  have e1 : ∀ k : Fin 128, lidx_main_v1 (ix2 p q) k = ix2 p k := fun k => by idx_cases
  have e2 : ∀ k : Fin 128, idx_main_v0 (ridx_main_v1 (ix2 p q) k) = ix2 q k := fun k => by idx_cases
  have e3 : idx_main_v2 (idx_main_v3 (ix2 p q)) = ix1 q := by idx_cases
  rw [e3]
  refine congrArg (· + b (ix1 q)) (Finset.sum_congr rfl fun k _ => ?_)
  rw [val_main_v0_apply, e1, e2]

/-- The first stage is the input projection. -/
theorem proj_eq (x : Mat 10000 128) (w : Mat 128 128) (b : Vc 128) :
    val_main_v5 (F := Ideal) x w b = proj x w b := by
  funext i
  obtain ⟨p, q, rfl⟩ : ∃ (p : Fin 10000) (q : Fin 128), i = ix2 p q := ⟨i 0, i 1, eq_ix2 i⟩
  rw [proj_apply, val_main_v5_apply, affine_at]
  rfl

/-- One propagation layer, entry (p, q), over any previous stage `h`: if `P` and `N` are the two neighbourhood sums
    of `h`, then tanh of the sum of the two affine maps of `P` and `N` is the specification's layer entry. -/
theorem layer_core (h : Mat 10000 128) (ap an : Mat 10000 10000) (wp : Mat 128 128) (bp : Vc 128)
    (wn : Mat 128 128) (bn : Vc 128) (P N : Mat 10000 128)
    (hP : ∀ (p : Fin 10000) (k : Fin 128), P (ix2 p k) = propAt ap h p k)
    (hN : ∀ (p : Fin 10000) (k : Fin 128), N (ix2 p k) = propAt an h p k)
    (p : Fin 10000) (q : Fin 128) :
    FloatOps.hostUnary (F := Ideal) (φ := .f32) .tanh
        (FloatOps.addf (val_main_v4 (F := Ideal) P wp bp (ix2 p q)) (val_main_v4 (F := Ideal) N wn bn (ix2 p q)))
      = layerAt h ap an wp bp wn bn p q := by
  rw [affine_at, affine_at]
  have eP : (∑ k : Fin 128, P (ix2 p k) * wp (ix2 q k)) = ∑ k : Fin 128, propAt ap h p k * wp (ix2 q k) :=
    Finset.sum_congr rfl fun k _ => by rw [hP]
  have eN : (∑ k : Fin 128, N (ix2 p k) * wn (ix2 q k)) = ∑ k : Fin 128, propAt an h p k * wn (ix2 q k) :=
    Finset.sum_congr rfl fun k _ => by rw [hN]
  rw [eP, eN]
  rfl

/-- The first layer's neighbourhood sum over the positive adjacency: entry (p, k) contracts the adjacency's second
    coordinate against the previous stage's first. -/
theorem prop6 (x0 : Mat 10000 128) (x1 : Mat 10000 10000) (x3 : Mat 128 128) (x4 : Vc 128) (p : Fin 10000) (k : Fin 128) :
    val_main_v6 (F := Ideal) x0 x1 x3 x4 (ix2 p k) = propAt x1 (val_main_v5 (F := Ideal) x0 x3 x4) p k := by
  rw [val_main_v6_apply]
  unfold propAt
  refine Finset.sum_congr rfl fun n _ => ?_
  have e1 : lidx_main_v6 (ix2 p k) n = ix2 p n := by idx_cases
  have e2 : ridx_main_v6 (ix2 p k) n = ix2 n k := by idx_cases
  rw [e1, e2]

/-- The same over the negative adjacency. -/
theorem prop7 (x0 : Mat 10000 128) (x2 : Mat 10000 10000) (x3 : Mat 128 128) (x4 : Vc 128) (p : Fin 10000) (k : Fin 128) :
    val_main_v7 (F := Ideal) x0 x2 x3 x4 (ix2 p k) = propAt x2 (val_main_v5 (F := Ideal) x0 x3 x4) p k := by
  rw [val_main_v7_apply]
  unfold propAt
  refine Finset.sum_congr rfl fun n _ => ?_
  have e1 : lidx_main_v7 (ix2 p k) n = ix2 p n := by idx_cases
  have e2 : ridx_main_v7 (ix2 p k) n = ix2 n k := by idx_cases
  rw [e1, e2]

/-- The sixth to nineteenth stages are one propagation layer over the first stage. Each of the layer's two branches is
    the affine stage `val_main_v4` at another left factor and other weights: the same operations on other operands. -/
theorem layer1_eq (x0 : Mat 10000 128) (x1 x2 : Mat 10000 10000) (x3 : Mat 128 128) (x4 : Vc 128)
    (x5 : Mat 128 128) (x6 : Vc 128) (x7 : Mat 128 128) (x8 : Vc 128) :
    val_main_v19 (F := Ideal) x0 x1 x2 x3 x4 x5 x6 x7 x8
      = layer (val_main_v5 (F := Ideal) x0 x3 x4) x1 x2 x5 x6 x7 x8 := by
  funext i
  obtain ⟨p, q, rfl⟩ : ∃ (p : Fin 10000) (q : Fin 128), i = ix2 p q := ⟨i 0, i 1, eq_ix2 i⟩
  have e12 : val_main_v12 (F := Ideal) x0 x1 x3 x4 x5 x6
      = val_main_v4 (F := Ideal) (val_main_v6 (F := Ideal) x0 x1 x3 x4) x5 x6 := rfl
  have e17 : val_main_v17 (F := Ideal) x0 x2 x3 x4 x7 x8
      = val_main_v4 (F := Ideal) (val_main_v7 (F := Ideal) x0 x2 x3 x4) x7 x8 := rfl
  rw [layer_apply, val_main_v19_apply, val_main_v18_apply, e12, e17]
  exact layer_core (val_main_v5 (F := Ideal) x0 x3 x4) x1 x2 x5 x6 x7 x8
    (val_main_v6 (F := Ideal) x0 x1 x3 x4) (val_main_v7 (F := Ideal) x0 x2 x3 x4)
    (prop6 x0 x1 x3 x4) (prop7 x0 x2 x3 x4) p q

/-- The second layer's neighbourhood sum over the positive adjacency. -/
theorem prop20 (x0 : Mat 10000 128) (x1 x2 : Mat 10000 10000) (x3 : Mat 128 128) (x4 : Vc 128)
    (x5 : Mat 128 128) (x6 : Vc 128) (x7 : Mat 128 128) (x8 : Vc 128) (p : Fin 10000) (k : Fin 128) :
    val_main_v20 (F := Ideal) x0 x1 x2 x3 x4 x5 x6 x7 x8 (ix2 p k)
      = propAt x1 (val_main_v19 (F := Ideal) x0 x1 x2 x3 x4 x5 x6 x7 x8) p k := by
  rw [val_main_v20_apply]
  unfold propAt
  refine Finset.sum_congr rfl fun n _ => ?_
  have e1 : lidx_main_v20 (ix2 p k) n = ix2 p n := by idx_cases
  have e2 : ridx_main_v20 (ix2 p k) n = ix2 n k := by idx_cases
  rw [e1, e2]

/-- The same over the negative adjacency. -/
theorem prop21 (x0 : Mat 10000 128) (x1 x2 : Mat 10000 10000) (x3 : Mat 128 128) (x4 : Vc 128)
    (x5 : Mat 128 128) (x6 : Vc 128) (x7 : Mat 128 128) (x8 : Vc 128) (p : Fin 10000) (k : Fin 128) :
    val_main_v21 (F := Ideal) x0 x1 x2 x3 x4 x5 x6 x7 x8 (ix2 p k)
      = propAt x2 (val_main_v19 (F := Ideal) x0 x1 x2 x3 x4 x5 x6 x7 x8) p k := by
  rw [val_main_v21_apply]
  unfold propAt
  refine Finset.sum_congr rfl fun n _ => ?_
  have e1 : lidx_main_v21 (ix2 p k) n = ix2 p n := by idx_cases
  have e2 : ridx_main_v21 (ix2 p k) n = ix2 n k := by idx_cases
  rw [e1, e2]

/-- The twentieth to thirty-third stages are one propagation layer over the nineteenth. -/
theorem layer2_eq (x0 : Mat 10000 128) (x1 x2 : Mat 10000 10000) (x3 : Mat 128 128) (x4 : Vc 128)
    (x5 : Mat 128 128) (x6 : Vc 128) (x7 : Mat 128 128) (x8 : Vc 128)
    (x9 : Mat 128 128) (x10 : Vc 128) (x11 : Mat 128 128) (x12 : Vc 128) :
    val_main_v33 (F := Ideal) x0 x1 x2 x3 x4 x5 x6 x7 x8 x9 x10 x11 x12
      = layer (val_main_v19 (F := Ideal) x0 x1 x2 x3 x4 x5 x6 x7 x8) x1 x2 x9 x10 x11 x12 := by
  funext i
  obtain ⟨p, q, rfl⟩ : ∃ (p : Fin 10000) (q : Fin 128), i = ix2 p q := ⟨i 0, i 1, eq_ix2 i⟩
  have e26 : val_main_v26 (F := Ideal) x0 x1 x2 x3 x4 x5 x6 x7 x8 x9 x10
      = val_main_v4 (F := Ideal) (val_main_v20 (F := Ideal) x0 x1 x2 x3 x4 x5 x6 x7 x8) x9 x10 := rfl
  have e31 : val_main_v31 (F := Ideal) x0 x1 x2 x3 x4 x5 x6 x7 x8 x11 x12
      = val_main_v4 (F := Ideal) (val_main_v21 (F := Ideal) x0 x1 x2 x3 x4 x5 x6 x7 x8) x11 x12 := rfl
  rw [layer_apply, val_main_v33_apply, val_main_v32_apply, e26, e31]
  exact layer_core (val_main_v19 (F := Ideal) x0 x1 x2 x3 x4 x5 x6 x7 x8) x1 x2 x9 x10 x11 x12
    (val_main_v20 (F := Ideal) x0 x1 x2 x3 x4 x5 x6 x7 x8) (val_main_v21 (F := Ideal) x0 x1 x2 x3 x4 x5 x6 x7 x8)
    (prop20 x0 x1 x2 x3 x4 x5 x6 x7 x8) (prop21 x0 x1 x2 x3 x4 x5 x6 x7 x8) p q

/-- The reference's result is the specification: the projection, then the two layers. -/
theorem ref_eq (x0 : Cert.Spec.Mat 10000 128) (x1 x2 : Cert.Spec.Mat 10000 10000) (x3 : Cert.Spec.Mat 128 128) (x4 : Cert.Spec.Vc 128)
    (x5 : Cert.Spec.Mat 128 128) (x6 : Cert.Spec.Vc 128) (x7 : Cert.Spec.Mat 128 128) (x8 : Cert.Spec.Vc 128)
    (x9 : Cert.Spec.Mat 128 128) (x10 : Cert.Spec.Vc 128) (x11 : Cert.Spec.Mat 128 128) (x12 : Cert.Spec.Vc 128) :
    val_main_v33 (F := Ideal) x0 x1 x2 x3 x4 x5 x6 x7 x8 x9 x10 x11 x12
      = Cert.Spec.G x0 x1 x2 x3 x4 x5 x6 x7 x8 x9 x10 x11 x12 := by
  unfold Cert.Spec.G
  rw [layer2_eq, layer1_eq, proj_eq]

end Cert.RefValue

end
-- ==== Proof.lean ====
/-
  A signed graph network's forward pass — the input projection h0 = tanh (x · W_inᵀ + b_in), then twice
  h ↦ tanh ((A⁺·h)·Wpᵀ + bp + ((A⁻·h)·Wnᵀ + bn)) — computed by two row-blocked kernel launches against plain matrix
  algebra on the host. The launches tile the 10000 rows into fifty strips of 200; each strip's products contract
  over whole rows and columns, so the strips are restrictions of ONE whole-array function, grouped exactly as the
  host groups its sums: at the extended reals the two results are the same term of the arguments (Spec.lean's `G`),
  and no law of the extended reals beyond reading a sum at an index is used — the precondition is never opened.
  The first launch keeps the projection in a scratch buffer of its own, written at its first grid point and read
  at all fifty: its frame carries an invariant that names the scratch's contents from the first point on.
  The frames (every execution terminates, faults nowhere, leaves the thirteen arguments unchanged) are proved once
  for every float instance and cited at the word level and at the extended reals; the reference's frame is its run
  with the result dropped; the idealization rewrote nothing, so there is nothing to preserve.
-/
import proofs.«163664_g26603027432195_retrytranche2_1891_18_alg».proof.Defs
import proofs.«163664_g26603027432195_retrytranche2_1891_18_alg».proof.Proof.Gen.Kernel
import proofs.«163664_g26603027432195_retrytranche2_1891_18_alg».proof.Proof.Gen.KernelIdeal
import proofs.«163664_g26603027432195_retrytranche2_1891_18_alg».proof.Proof.Gen.ReferenceIdeal
import proofs.«163664_g26603027432195_retrytranche2_1891_18_alg».proof.Proof.Gen.Pre_finite_inputs
import proofs.«163664_g26603027432195_retrytranche2_1891_18_alg».proof.Proof.Gen.ReferenceIdeal.Run
import proofs.«163664_g26603027432195_retrytranche2_1891_18_alg».proof.Proof.Gen.ReferenceIdeal.Read
import proofs.«163664_g26603027432195_retrytranche2_1891_18_alg».proof.Proof.Kernel.Run
import proofs.«163664_g26603027432195_retrytranche2_1891_18_alg».proof.Proof.KernelIdeal.Blocks
import proofs.«163664_g26603027432195_retrytranche2_1891_18_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Frame.frame (F := Bits) m ρ

/-- So does its reading at the extended reals. -/
theorem frame_ki : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel's result array ends at the specification's forward pass of its arguments, and so
    does the reference's, of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Blocks.result_eq m ρ c), (h c).2⟩)
      (Cert.KernelIdeal.Frame.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v33_eq, Cert.RefValue.ref_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
